-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x64 : S_.BroadcastsInDim S512x64 (![] : Fin 0 → Fin S512x64.rank)
  reducesTo_S512x64_S_d0_1 : S512x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x512 .f32) (main_arg1 : IVec S2x1600000 32) (main_arg2 : FVec F S512x64 .f32) (main_arg3 : FVec F S64 .f32) (main_arg4 : FVec F S64x32 .f32) (main_arg5 : FVec F S32 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x64 .f32 := Host.absf main_arg2
  let main_cst_0 : FVec F S_ .f32 := constant S_ .f32 0x7F800000#32
  let main_v5 : FVec F S512x64 .f32 := broadcastInDim S512x64 ![] bcast_S_S512x64 main_cst_0
  let main_v6 : IVec S512x64 1 := cmpf .olt main_v4 main_v5
  let main_c_1 : IVec S_ 1 := constantI S_ 1 1#1
  let main_v7 : IVec S_ 1 := (fun x v => Host.reduce IntOp.andi x v reducesTo_S512x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S1x64 : Shape := ⟨2, ![1, 64]⟩
abbrev S1x32 : Shape := ⟨2, ![1, 32]⟩
abbrev S100000x32 : Shape := ⟨2, ![100000, 32]⟩
abbrev S4000x512 : Shape := ⟨2, ![4000, 512]⟩
abbrev S4000x32 : Shape := ⟨2, ![4000, 32]⟩
abbrev S4000x64 : Shape := ⟨2, ![4000, 64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩

abbrev nBuf : Space → Nat
  | .hbm => 234
  | .vmem => 8
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S1x64, .f32⟩
  | 11 => ⟨S1x32, .f32⟩
  | 12 => ⟨S100000x32, .f32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S1600000x1, .i32⟩
  | 22 => ⟨S100000, .f32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S_, .f32⟩
  | 31 => ⟨S_, .f32⟩
  | 32 => ⟨S100000, .f32⟩
  | 33 => ⟨S100000, .f32⟩
  | 34 => ⟨S100000, .f32⟩
  | 35 => ⟨S100000x1, .f32⟩
  | 36 => ⟨S100000x32, .f32⟩
  | 37 => ⟨S100000x32, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x32, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x32, .f32⟩
  | 56 => ⟨S1600000x32, .f32⟩
  | 57 => ⟨S1600000x32, .f32⟩
  | 58 => ⟨S_, .f32⟩
  | 59 => ⟨S1600000, .f32⟩
  | 60 => ⟨S_, .f32⟩
  | 61 => ⟨S1600000, .f32⟩
  | 62 => ⟨S1600000, .f32⟩
  | 63 => ⟨S_, .f32⟩
  | 64 => ⟨S1600000, .f32⟩
  | 65 => ⟨S1600000, .f32⟩
  | 66 => ⟨S_, .f32⟩
  | 67 => ⟨S100000, .f32⟩
  | 68 => ⟨S1600000x1, .i32⟩
  | 69 => ⟨S100000, .f32⟩
  | 70 => ⟨S_, .f32⟩
  | 71 => ⟨S100000, .f32⟩
  | 72 => ⟨S1600000x1, .i32⟩
  | 73 => ⟨S100000, .f32⟩
  | 74 => ⟨S100000, .f32⟩
  | 75 => ⟨S100000, .f32⟩
  | 76 => ⟨S_, .f32⟩
  | 77 => ⟨S100000, .f32⟩
  | 78 => ⟨S100000, .f32⟩
  | 79 => ⟨S_, .f32⟩
  | 80 => ⟨S100000, .f32⟩
  | 81 => ⟨S100000, .f32⟩
  | 82 => ⟨S_, .f32⟩
  | 83 => ⟨S100000, .f32⟩
  | 84 => ⟨S100000, .f32⟩
  | 85 => ⟨S1600000x1, .f32⟩
  | 86 => ⟨S_, .i32⟩
  | 87 => ⟨S1600000, .i32⟩
  | 88 => ⟨S1600000, .i1⟩
  | 89 => ⟨S_, .i32⟩
  | 90 => ⟨S1600000, .i32⟩
  | 91 => ⟨S1600000, .i32⟩
  | 92 => ⟨S1600000, .i32⟩
  | 93 => ⟨S1600000x1, .i32⟩
  | 94 => ⟨S1600000x32, .f32⟩
  | 95 => ⟨S1600000x32, .f32⟩
  | 96 => ⟨S1600000x32, .f32⟩
  | 97 => ⟨S_, .f32⟩
  | 98 => ⟨S100000x32, .f32⟩
  | 99 => ⟨S1600000x1, .i32⟩
  | 100 => ⟨S100000x32, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x32, .f32⟩
  | 110 => ⟨S1600000x32, .f32⟩
  | 111 => ⟨S1600000x32, .f32⟩
  | 112 => ⟨S_, .f32⟩
  | 113 => ⟨S100000x32, .f32⟩
  | 114 => ⟨S1600000x1, .i32⟩
  | 115 => ⟨S100000x32, .f32⟩
  | 116 => ⟨S100000x32, .f32⟩
  | 117 => ⟨S100000x1, .f32⟩
  | 118 => ⟨S100000x1, .f32⟩
  | 119 => ⟨S100000x32, .f32⟩
  | 120 => ⟨S100000x32, .f32⟩
  | 121 => ⟨S100000x32, .f32⟩
  | 122 => ⟨S100000x32, .f32⟩
  | 123 => ⟨S100000x1, .f32⟩
  | 124 => ⟨S100000x32, .f32⟩
  | 125 => ⟨S100000x32, .f32⟩
  | 126 => ⟨S100000x32, .f32⟩
  | 127 => ⟨S100000x1, .f32⟩
  | _ => ⟨S100000x512, .f32⟩

abbrev hbmTy0_1 (i : Nat) : BufTy := match i % 128 with
  | 0 => ⟨S100000x32, .f32⟩
  | 1 => ⟨S100000x32, .f32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x32, .f32⟩
  | 11 => ⟨S_, .i32⟩
  | 12 => ⟨S1600000, .i32⟩
  | 13 => ⟨S1600000, .i1⟩
  | 14 => ⟨S_, .i32⟩
  | 15 => ⟨S1600000, .i32⟩
  | 16 => ⟨S1600000, .i32⟩
  | 17 => ⟨S1600000, .i32⟩
  | 18 => ⟨S1600000x1, .i32⟩
  | 19 => ⟨S1600000x32, .f32⟩
  | 20 => ⟨S1600000x32, .f32⟩
  | 21 => ⟨S1600000x32, .f32⟩
  | 22 => ⟨S_, .f32⟩
  | 23 => ⟨S1600000, .f32⟩
  | 24 => ⟨S_, .f32⟩
  | 25 => ⟨S1600000, .f32⟩
  | 26 => ⟨S1600000, .f32⟩
  | 27 => ⟨S_, .f32⟩
  | 28 => ⟨S1600000, .f32⟩
  | 29 => ⟨S1600000, .f32⟩
  | 30 => ⟨S_, .f32⟩
  | 31 => ⟨S100000, .f32⟩
  | 32 => ⟨S1600000x1, .i32⟩
  | 33 => ⟨S100000, .f32⟩
  | 34 => ⟨S_, .f32⟩
  | 35 => ⟨S100000, .f32⟩
  | 36 => ⟨S1600000x1, .i32⟩
  | 37 => ⟨S100000, .f32⟩
  | 38 => ⟨S100000, .f32⟩
  | 39 => ⟨S100000, .f32⟩
  | 40 => ⟨S_, .f32⟩
  | 41 => ⟨S100000, .f32⟩
  | 42 => ⟨S100000, .f32⟩
  | 43 => ⟨S_, .f32⟩
  | 44 => ⟨S100000, .f32⟩
  | 45 => ⟨S100000, .f32⟩
  | 46 => ⟨S_, .f32⟩
  | 47 => ⟨S100000, .f32⟩
  | 48 => ⟨S100000, .f32⟩
  | 49 => ⟨S1600000x1, .f32⟩
  | 50 => ⟨S_, .i32⟩
  | 51 => ⟨S1600000, .i32⟩
  | 52 => ⟨S1600000, .i1⟩
  | 53 => ⟨S_, .i32⟩
  | 54 => ⟨S1600000, .i32⟩
  | 55 => ⟨S1600000, .i32⟩
  | 56 => ⟨S1600000, .i32⟩
  | 57 => ⟨S1600000x1, .i32⟩
  | 58 => ⟨S1600000x32, .f32⟩
  | 59 => ⟨S1600000x32, .f32⟩
  | 60 => ⟨S1600000x32, .f32⟩
  | 61 => ⟨S_, .f32⟩
  | 62 => ⟨S100000x32, .f32⟩
  | 63 => ⟨S1600000x1, .i32⟩
  | 64 => ⟨S100000x32, .f32⟩
  | 65 => ⟨S_, .i32⟩
  | 66 => ⟨S1600000, .i32⟩
  | 67 => ⟨S1600000, .i1⟩
  | 68 => ⟨S_, .i32⟩
  | 69 => ⟨S1600000, .i32⟩
  | 70 => ⟨S1600000, .i32⟩
  | 71 => ⟨S1600000, .i32⟩
  | 72 => ⟨S1600000x1, .i32⟩
  | 73 => ⟨S1600000x32, .f32⟩
  | 74 => ⟨S1600000x32, .f32⟩
  | 75 => ⟨S1600000x32, .f32⟩
  | 76 => ⟨S_, .f32⟩
  | 77 => ⟨S100000x32, .f32⟩
  | 78 => ⟨S1600000x1, .i32⟩
  | 79 => ⟨S100000x32, .f32⟩
  | 80 => ⟨S100000x32, .f32⟩
  | 81 => ⟨S100000x1, .f32⟩
  | 82 => ⟨S100000x1, .f32⟩
  | 83 => ⟨S100000x32, .f32⟩
  | 84 => ⟨S100000x32, .f32⟩
  | 85 => ⟨S100000x32, .f32⟩
  | 86 => ⟨S100000x32, .f32⟩
  | 87 => ⟨S100000x1, .f32⟩
  | 88 => ⟨S100000x32, .f32⟩
  | 89 => ⟨S100000x32, .f32⟩
  | 90 => ⟨S100000x32, .f32⟩
  | 91 => ⟨S_, .f32⟩
  | 92 => ⟨S100000, .f32⟩
  | 93 => ⟨S_, .f32⟩
  | 94 => ⟨S100000, .f32⟩
  | 95 => ⟨S100000, .f32⟩
  | 96 => ⟨S100000x1, .f32⟩
  | 97 => ⟨S100000x32, .f32⟩
  | 98 => ⟨S100000x32, .f32⟩
  | 99 => ⟨S100000x32, .f32⟩
  | 100 => ⟨S_, .f32⟩
  | 101 => ⟨S100000, .f32⟩
  | 102 => ⟨S100000x1, .f32⟩
  | 103 => ⟨S100000x1, .f32⟩
  | 104 => ⟨S100000x32, .f32⟩
  | 105 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S1x64, .f32⟩
  | .local _ .vmem, ⟨4, _⟩ => ⟨S64x32, .f32⟩
  | .local _ .vmem, ⟨5, _⟩ => ⟨S1x32, .f32⟩
  | .local _ .vmem, ⟨6, _⟩ => ⟨S4000x32, .f32⟩
  | .local _ .vmem, ⟨7, _⟩ => ⟨S4000x32, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_call0_v0 : Ref sig .tc := ⟨.hbm, 31, rfl⟩
abbrev main_call0_v1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_cst_10 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_13 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_c_16 : Ref sig .tc := ⟨.hbm, 86, rfl⟩
abbrev main_v60 : Ref sig .tc := ⟨.hbm, 87, rfl⟩
abbrev main_v61 : Ref sig .tc := ⟨.hbm, 88, rfl⟩
abbrev main_c_17 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_cst_18 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_c_19 : Ref sig .tc := ⟨.hbm, 101, rfl⟩
abbrev main_v72 : Ref sig .tc := ⟨.hbm, 102, rfl⟩
abbrev main_v73 : Ref sig .tc := ⟨.hbm, 103, rfl⟩
abbrev main_c_20 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_cst_21 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_c_22 : Ref sig .tc := ⟨.hbm, 130, rfl⟩
abbrev main_v98 : Ref sig .tc := ⟨.hbm, 131, rfl⟩
abbrev main_v99 : Ref sig .tc := ⟨.hbm, 132, rfl⟩
abbrev main_c_23 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_c_24 : Ref sig .tc := ⟨.hbm, 139, rfl⟩
abbrev main_v105 : Ref sig .tc := ⟨.hbm, 140, rfl⟩
abbrev main_v106 : Ref sig .tc := ⟨.hbm, 141, rfl⟩
abbrev main_c_25 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_cst_26 : Ref sig .tc := ⟨.hbm, 150, rfl⟩
abbrev main_v114 : Ref sig .tc := ⟨.hbm, 151, rfl⟩
abbrev main_cst_27 : Ref sig .tc := ⟨.hbm, 152, rfl⟩
abbrev main_v115 : Ref sig .tc := ⟨.hbm, 153, rfl⟩
abbrev main_v116 : Ref sig .tc := ⟨.hbm, 154, rfl⟩
abbrev main_cst_28 : Ref sig .tc := ⟨.hbm, 155, rfl⟩
abbrev main_v117 : Ref sig .tc := ⟨.hbm, 156, rfl⟩
abbrev main_v118 : Ref sig .tc := ⟨.hbm, 157, rfl⟩
abbrev main_cst_29 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_cst_30 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_cst_31 : Ref sig .tc := ⟨.hbm, 168, rfl⟩
abbrev main_v127 : Ref sig .tc := ⟨.hbm, 169, rfl⟩
abbrev main_v128 : Ref sig .tc := ⟨.hbm, 170, rfl⟩
abbrev main_cst_32 : Ref sig .tc := ⟨.hbm, 171, rfl⟩
abbrev main_v129 : Ref sig .tc := ⟨.hbm, 172, rfl⟩
abbrev main_v130 : Ref sig .tc := ⟨.hbm, 173, rfl⟩
abbrev main_cst_33 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_34 : Ref sig .tc := ⟨.hbm, 178, rfl⟩
abbrev main_v134 : Ref sig .tc := ⟨.hbm, 179, rfl⟩
abbrev main_v135 : Ref sig .tc := ⟨.hbm, 180, rfl⟩
abbrev main_c_35 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_36 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_37 : Ref sig .tc := ⟨.hbm, 193, rfl⟩
abbrev main_v146 : Ref sig .tc := ⟨.hbm, 194, rfl⟩
abbrev main_v147 : Ref sig .tc := ⟨.hbm, 195, rfl⟩
abbrev main_c_38 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_cst_39 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_call1_cst : Ref sig .tc := ⟨.hbm, 219, rfl⟩
abbrev main_call1_v0 : Ref sig .tc := ⟨.hbm, 220, rfl⟩
abbrev main_call1_cst_0 : Ref sig .tc := ⟨.hbm, 221, rfl⟩
abbrev main_call1_v1 : Ref sig .tc := ⟨.hbm, 222, rfl⟩
abbrev main_call1_v2 : Ref sig .tc := ⟨.hbm, 223, rfl⟩
abbrev main_call1_v3 : Ref sig .tc := ⟨.hbm, 224, rfl⟩
abbrev main_call1_v4 : Ref sig .tc := ⟨.hbm, 225, rfl⟩
abbrev main_call1_v5 : Ref sig .tc := ⟨.hbm, 226, rfl⟩
abbrev main_call1_v6 : Ref sig .tc := ⟨.hbm, 227, rfl⟩
abbrev main_call1_cst_1 : Ref sig .tc := ⟨.hbm, 228, rfl⟩
abbrev main_call1_v7 : Ref sig .tc := ⟨.hbm, 229, rfl⟩
abbrev main_call1_v8 : Ref sig .tc := ⟨.hbm, 230, rfl⟩
abbrev main_call1_v9 : Ref sig .tc := ⟨.hbm, 231, rfl⟩
abbrev main_call1_v10 : Ref sig .tc := ⟨.hbm, 232, rfl⟩
abbrev main_v169 : Ref sig .tc := ⟨.hbm, 233, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  shapeCasts_S64_S1x64 : S64.ShapeCasts S1x64
  shapeCasts_S32_S1x32 : S32.ShapeCasts S1x32
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4000x64 : S1x64.Broadcasts S4000x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S4000x32 : S1x32.Broadcasts S4000x32
  inb_S4000x32_S4000x32_0_0 : ∀ a, (![0, 0] : Fin 2 → Nat) a + S4000x32.size a ≤ S4000x32.size a
  h_S4000x32 : 0 < S4000x32.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  reducesTo_S1600000x32_S1600000_d1 : S1600000x32.ReducesTo [1] S1600000
  h_S_ : 0 < S_.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  reducesTo_S100000x32_S100000_d1 : S100000x32.ReducesTo [1] S100000
  dot_S4000x512_S512x64_S4000x64_1_0_0_1_n_n_wf : DotDims.WF S4000x512 S512x64 S4000x64 [1] [0] [0] [1] [] []
  dot_S4000x64_S64x32_S4000x32_1_0_0_1_n_n_wf : DotDims.WF S4000x64 S64x32 S4000x32 [1] [0] [0] [1] [] []
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x32.size a ≤ S64x32.size a
  hwx0_3 : ∀ i : grid0.Coords, EltTy.bits .f32 = 32 ∨ (Rect.block (s := S64x32) S64x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x32.size a ≤ S100000x32.size a
  hwx0_5 : ∀ i : grid0.Coords, EltTy.bits .f32 = 32 ∨ (Rect.block (s := S100000x32) S4000x32.size (cc0_transform_5 i) (hinb0_5 i)).WholeWords (EltTy.packing .f32)

variable [Facts₀]

def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def dot_S4000x64_S64x32_S4000x32_1_0_0_1_n_n : DotDims S4000x64 S64x32 S4000x32 where
  lhsContracting := [1]
  rhsContracting := [0]
  lhsNonContracting := [0]
  rhsNonContracting := [1]
  lhsBatch := []
  rhsBatch := []
  wf := dot_S4000x64_S64x32_S4000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S4000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x512 : Shape := ⟨2, ![100000, 512]⟩
abbrev S2x1600000 : Shape := ⟨2, ![2, 1600000]⟩
abbrev S512x64 : Shape := ⟨2, ![512, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S1600000 : Shape := ⟨1, ![1600000]⟩
abbrev S100000x64 : Shape := ⟨2, ![100000, 64]⟩
abbrev S1x64 : Shape := ⟨2, ![1, 64]⟩
abbrev S_ : Shape := ⟨0, ![]⟩
abbrev S100000x32 : Shape := ⟨2, ![100000, 32]⟩
abbrev S1x32 : Shape := ⟨2, ![1, 32]⟩
abbrev S100000 : Shape := ⟨1, ![100000]⟩
abbrev S1600000x1 : Shape := ⟨2, ![1600000, 1]⟩
abbrev S100000x1 : Shape := ⟨2, ![100000, 1]⟩
abbrev S1600000x32 : Shape := ⟨2, ![1600000, 32]⟩

abbrev nBuf : Space → Nat
  | .hbm => 242
  | .vmem => 0
  | .smem => 0
  | _ => 0

abbrev hbmTy0_0 (i : Nat) : BufTy := match i % 128 with
  | 0 => ⟨S100000x512, .f32⟩
  | 1 => ⟨S2x1600000, .i32⟩
  | 2 => ⟨S512x64, .f32⟩
  | 3 => ⟨S64, .f32⟩
  | 4 => ⟨S64x32, .f32⟩
  | 5 => ⟨S32, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S1x64, .f32⟩
  | 12 => ⟨S100000x64, .f32⟩
  | 13 => ⟨S100000x64, .f32⟩
  | 14 => ⟨S_, .f32⟩
  | 15 => ⟨S100000x64, .f32⟩
  | 16 => ⟨S100000x64, .f32⟩
  | 17 => ⟨S100000x32, .f32⟩
  | 18 => ⟨S1x32, .f32⟩
  | 19 => ⟨S100000x32, .f32⟩
  | 20 => ⟨S100000x32, .f32⟩
  | 21 => ⟨S_, .f32⟩
  | 22 => ⟨S1600000, .f32⟩
  | 23 => ⟨S_, .f32⟩
  | 24 => ⟨S100000, .f32⟩
  | 25 => ⟨S1600000x1, .i32⟩
  | 26 => ⟨S100000, .f32⟩
  | 27 => ⟨S_, .f32⟩
  | 28 => ⟨S100000, .f32⟩
  | 29 => ⟨S1600000x1, .i32⟩
  | 30 => ⟨S100000, .f32⟩
  | 31 => ⟨S100000, .f32⟩
  | 32 => ⟨S_, .f32⟩
  | 33 => ⟨S100000, .f32⟩
  | 34 => ⟨S100000, .i1⟩
  | 35 => ⟨S_, .f32⟩
  | 36 => ⟨S100000, .f32⟩
  | 37 => ⟨S100000, .f32⟩
  | 38 => ⟨S_, .f32⟩
  | 39 => ⟨S_, .f32⟩
  | 40 => ⟨S100000, .f32⟩
  | 41 => ⟨S100000, .f32⟩
  | 42 => ⟨S100000, .f32⟩
  | 43 => ⟨S100000x1, .f32⟩
  | 44 => ⟨S100000x32, .f32⟩
  | 45 => ⟨S100000x32, .f32⟩
  | 46 => ⟨S_, .i32⟩
  | 47 => ⟨S1600000, .i32⟩
  | 48 => ⟨S1600000, .i1⟩
  | 49 => ⟨S_, .i32⟩
  | 50 => ⟨S1600000, .i32⟩
  | 51 => ⟨S1600000, .i32⟩
  | 52 => ⟨S1600000, .i32⟩
  | 53 => ⟨S1600000x1, .i32⟩
  | 54 => ⟨S1600000x32, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x32, .f32⟩
  | 64 => ⟨S1600000x32, .f32⟩
  | 65 => ⟨S1600000x32, .f32⟩
  | 66 => ⟨S_, .f32⟩
  | 67 => ⟨S1600000, .f32⟩
  | 68 => ⟨S_, .f32⟩
  | 69 => ⟨S1600000, .f32⟩
  | 70 => ⟨S1600000, .f32⟩
  | 71 => ⟨S_, .f32⟩
  | 72 => ⟨S1600000, .f32⟩
  | 73 => ⟨S1600000, .f32⟩
  | 74 => ⟨S_, .f32⟩
  | 75 => ⟨S100000, .f32⟩
  | 76 => ⟨S1600000x1, .i32⟩
  | 77 => ⟨S100000, .f32⟩
  | 78 => ⟨S_, .f32⟩
  | 79 => ⟨S100000, .f32⟩
  | 80 => ⟨S1600000x1, .i32⟩
  | 81 => ⟨S100000, .f32⟩
  | 82 => ⟨S100000, .f32⟩
  | 83 => ⟨S100000, .f32⟩
  | 84 => ⟨S_, .f32⟩
  | 85 => ⟨S100000, .f32⟩
  | 86 => ⟨S100000, .f32⟩
  | 87 => ⟨S_, .f32⟩
  | 88 => ⟨S100000, .f32⟩
  | 89 => ⟨S100000, .f32⟩
  | 90 => ⟨S_, .f32⟩
  | 91 => ⟨S100000, .f32⟩
  | 92 => ⟨S100000, .f32⟩
  | 93 => ⟨S1600000x1, .f32⟩
  | 94 => ⟨S_, .i32⟩
  | 95 => ⟨S1600000, .i32⟩
  | 96 => ⟨S1600000, .i1⟩
  | 97 => ⟨S_, .i32⟩
  | 98 => ⟨S1600000, .i32⟩
  | 99 => ⟨S1600000, .i32⟩
  | 100 => ⟨S1600000, .i32⟩
  | 101 => ⟨S1600000x1, .i32⟩
  | 102 => ⟨S1600000x32, .f32⟩
  | 103 => ⟨S1600000x32, .f32⟩
  | 104 => ⟨S1600000x32, .f32⟩
  | 105 => ⟨S_, .f32⟩
  | 106 => ⟨S100000x32, .f32⟩
  | 107 => ⟨S1600000x1, .i32⟩
  | 108 => ⟨S100000x32, .f32⟩
  | 109 => ⟨S_, .i32⟩
  | 110 => ⟨S1600000, .i32⟩
  | 111 => ⟨S1600000, .i1⟩
  | 112 => ⟨S_, .i32⟩
  | 113 => ⟨S1600000, .i32⟩
  | 114 => ⟨S1600000, .i32⟩
  | 115 => ⟨S1600000, .i32⟩
  | 116 => ⟨S1600000x1, .i32⟩
  | 117 => ⟨S1600000x32, .f32⟩
  | 118 => ⟨S1600000x32, .f32⟩
  | 119 => ⟨S1600000x32, .f32⟩
  | 120 => ⟨S_, .f32⟩
  | 121 => ⟨S100000x32, .f32⟩
  | 122 => ⟨S1600000x1, .i32⟩
  | 123 => ⟨S100000x32, .f32⟩
  | 124 => ⟨S100000x32, .f32⟩
  | 125 => ⟨S100000x1, .f32⟩
  | 126 => ⟨S100000x1, .f32⟩
  | 127 => ⟨S100000x32, .f32⟩
  | _ => ⟨S100000x512, .f32⟩

abbrev hbmTy0_1 (i : Nat) : BufTy := match i % 128 with
  | 0 => ⟨S100000x32, .f32⟩
  | 1 => ⟨S100000x32, .f32⟩
  | 2 => ⟨S100000x32, .f32⟩
  | 3 => ⟨S100000x1, .f32⟩
  | 4 => ⟨S100000x32, .f32⟩
  | 5 => ⟨S100000x32, .f32⟩
  | 6 => ⟨S100000x32, .f32⟩
  | 7 => ⟨S100000x1, .f32⟩
  | 8 => ⟨S100000x32, .f32⟩
  | 9 => ⟨S100000x32, .f32⟩
  | 10 => ⟨S_, .i32⟩
  | 11 => ⟨S1600000, .i32⟩
  | 12 => ⟨S1600000, .i1⟩
  | 13 => ⟨S_, .i32⟩
  | 14 => ⟨S1600000, .i32⟩
  | 15 => ⟨S1600000, .i32⟩
  | 16 => ⟨S1600000, .i32⟩
  | 17 => ⟨S1600000x1, .i32⟩
  | 18 => ⟨S1600000x32, .f32⟩
  | 19 => ⟨S_, .i32⟩
  | 20 => ⟨S1600000, .i32⟩
  | 21 => ⟨S1600000, .i1⟩
  | 22 => ⟨S_, .i32⟩
  | 23 => ⟨S1600000, .i32⟩
  | 24 => ⟨S1600000, .i32⟩
  | 25 => ⟨S1600000, .i32⟩
  | 26 => ⟨S1600000x1, .i32⟩
  | 27 => ⟨S1600000x32, .f32⟩
  | 28 => ⟨S1600000x32, .f32⟩
  | 29 => ⟨S1600000x32, .f32⟩
  | 30 => ⟨S_, .f32⟩
  | 31 => ⟨S1600000, .f32⟩
  | 32 => ⟨S_, .f32⟩
  | 33 => ⟨S1600000, .f32⟩
  | 34 => ⟨S1600000, .f32⟩
  | 35 => ⟨S_, .f32⟩
  | 36 => ⟨S1600000, .f32⟩
  | 37 => ⟨S1600000, .f32⟩
  | 38 => ⟨S_, .f32⟩
  | 39 => ⟨S100000, .f32⟩
  | 40 => ⟨S1600000x1, .i32⟩
  | 41 => ⟨S100000, .f32⟩
  | 42 => ⟨S_, .f32⟩
  | 43 => ⟨S100000, .f32⟩
  | 44 => ⟨S1600000x1, .i32⟩
  | 45 => ⟨S100000, .f32⟩
  | 46 => ⟨S100000, .f32⟩
  | 47 => ⟨S100000, .f32⟩
  | 48 => ⟨S_, .f32⟩
  | 49 => ⟨S100000, .f32⟩
  | 50 => ⟨S100000, .f32⟩
  | 51 => ⟨S_, .f32⟩
  | 52 => ⟨S100000, .f32⟩
  | 53 => ⟨S100000, .f32⟩
  | 54 => ⟨S_, .f32⟩
  | 55 => ⟨S100000, .f32⟩
  | 56 => ⟨S100000, .f32⟩
  | 57 => ⟨S1600000x1, .f32⟩
  | 58 => ⟨S_, .i32⟩
  | 59 => ⟨S1600000, .i32⟩
  | 60 => ⟨S1600000, .i1⟩
  | 61 => ⟨S_, .i32⟩
  | 62 => ⟨S1600000, .i32⟩
  | 63 => ⟨S1600000, .i32⟩
  | 64 => ⟨S1600000, .i32⟩
  | 65 => ⟨S1600000x1, .i32⟩
  | 66 => ⟨S1600000x32, .f32⟩
  | 67 => ⟨S1600000x32, .f32⟩
  | 68 => ⟨S1600000x32, .f32⟩
  | 69 => ⟨S_, .f32⟩
  | 70 => ⟨S100000x32, .f32⟩
  | 71 => ⟨S1600000x1, .i32⟩
  | 72 => ⟨S100000x32, .f32⟩
  | 73 => ⟨S_, .i32⟩
  | 74 => ⟨S1600000, .i32⟩
  | 75 => ⟨S1600000, .i1⟩
  | 76 => ⟨S_, .i32⟩
  | 77 => ⟨S1600000, .i32⟩
  | 78 => ⟨S1600000, .i32⟩
  | 79 => ⟨S1600000, .i32⟩
  | 80 => ⟨S1600000x1, .i32⟩
  | 81 => ⟨S1600000x32, .f32⟩
  | 82 => ⟨S1600000x32, .f32⟩
  | 83 => ⟨S1600000x32, .f32⟩
  | 84 => ⟨S_, .f32⟩
  | 85 => ⟨S100000x32, .f32⟩
  | 86 => ⟨S1600000x1, .i32⟩
  | 87 => ⟨S100000x32, .f32⟩
  | 88 => ⟨S100000x32, .f32⟩
  | 89 => ⟨S100000x1, .f32⟩
  | 90 => ⟨S100000x1, .f32⟩
  | 91 => ⟨S100000x32, .f32⟩
  | 92 => ⟨S100000x32, .f32⟩
  | 93 => ⟨S100000x32, .f32⟩
  | 94 => ⟨S100000x32, .f32⟩
  | 95 => ⟨S100000x1, .f32⟩
  | 96 => ⟨S100000x32, .f32⟩
  | 97 => ⟨S100000x32, .f32⟩
  | 98 => ⟨S100000x32, .f32⟩
  | 99 => ⟨S_, .f32⟩
  | 100 => ⟨S100000, .f32⟩
  | 101 => ⟨S_, .f32⟩
  | 102 => ⟨S100000, .f32⟩
  | 103 => ⟨S100000, .f32⟩
  | 104 => ⟨S100000x1, .f32⟩
  | 105 => ⟨S100000x32, .f32⟩
  | 106 => ⟨S100000x32, .f32⟩
  | 107 => ⟨S100000x32, .f32⟩
  | 108 => ⟨S_, .f32⟩
  | 109 => ⟨S100000, .f32⟩
  | 110 => ⟨S100000x1, .f32⟩
  | 111 => ⟨S100000x1, .f32⟩
  | 112 => ⟨S100000x32, .f32⟩
  | 113 => ⟨S100000x32, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_call0_cst : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_6 : Ref sig .tc := ⟨.hbm, 55, rfl⟩
abbrev main_v37 : Ref sig .tc := ⟨.hbm, 56, rfl⟩
abbrev main_v38 : Ref sig .tc := ⟨.hbm, 57, rfl⟩
abbrev main_c_7 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_8 : Ref sig .tc := ⟨.hbm, 66, rfl⟩
abbrev main_v46 : Ref sig .tc := ⟨.hbm, 67, rfl⟩
abbrev main_cst_9 : Ref sig .tc := ⟨.hbm, 68, rfl⟩
abbrev main_v47 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_v50 : Ref sig .tc := ⟨.hbm, 73, rfl⟩
abbrev main_cst_11 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_12 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_16 : Ref sig .tc := ⟨.hbm, 94, rfl⟩
abbrev main_v66 : Ref sig .tc := ⟨.hbm, 95, rfl⟩
abbrev main_v67 : Ref sig .tc := ⟨.hbm, 96, rfl⟩
abbrev main_c_17 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_18 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_c_19 : Ref sig .tc := ⟨.hbm, 109, rfl⟩
abbrev main_v78 : Ref sig .tc := ⟨.hbm, 110, rfl⟩
abbrev main_v79 : Ref sig .tc := ⟨.hbm, 111, rfl⟩
abbrev main_c_20 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_cst_21 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_22 : Ref sig .tc := ⟨.hbm, 138, rfl⟩
abbrev main_v104 : Ref sig .tc := ⟨.hbm, 139, rfl⟩
abbrev main_v105 : Ref sig .tc := ⟨.hbm, 140, rfl⟩
abbrev main_c_23 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_c_24 : Ref sig .tc := ⟨.hbm, 147, rfl⟩
abbrev main_v111 : Ref sig .tc := ⟨.hbm, 148, rfl⟩
abbrev main_v112 : Ref sig .tc := ⟨.hbm, 149, rfl⟩
abbrev main_c_25 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_cst_26 : Ref sig .tc := ⟨.hbm, 158, rfl⟩
abbrev main_v120 : Ref sig .tc := ⟨.hbm, 159, rfl⟩
abbrev main_cst_27 : Ref sig .tc := ⟨.hbm, 160, rfl⟩
abbrev main_v121 : Ref sig .tc := ⟨.hbm, 161, rfl⟩
abbrev main_v122 : Ref sig .tc := ⟨.hbm, 162, rfl⟩
abbrev main_cst_28 : Ref sig .tc := ⟨.hbm, 163, rfl⟩
abbrev main_v123 : Ref sig .tc := ⟨.hbm, 164, rfl⟩
abbrev main_v124 : Ref sig .tc := ⟨.hbm, 165, rfl⟩
abbrev main_cst_29 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_cst_30 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_cst_31 : Ref sig .tc := ⟨.hbm, 176, rfl⟩
abbrev main_v133 : Ref sig .tc := ⟨.hbm, 177, rfl⟩
abbrev main_v134 : Ref sig .tc := ⟨.hbm, 178, rfl⟩
abbrev main_cst_32 : Ref sig .tc := ⟨.hbm, 179, rfl⟩
abbrev main_v135 : Ref sig .tc := ⟨.hbm, 180, rfl⟩
abbrev main_v136 : Ref sig .tc := ⟨.hbm, 181, rfl⟩
abbrev main_cst_33 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_c_34 : Ref sig .tc := ⟨.hbm, 186, rfl⟩
abbrev main_v140 : Ref sig .tc := ⟨.hbm, 187, rfl⟩
abbrev main_v141 : Ref sig .tc := ⟨.hbm, 188, rfl⟩
abbrev main_c_35 : Ref sig .tc := ⟨.hbm, 189, rfl⟩
abbrev main_v142 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_cst_36 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_c_37 : Ref sig .tc := ⟨.hbm, 201, rfl⟩
abbrev main_v152 : Ref sig .tc := ⟨.hbm, 202, rfl⟩
abbrev main_v153 : Ref sig .tc := ⟨.hbm, 203, rfl⟩
abbrev main_c_38 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_cst_39 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_call2_cst : Ref sig .tc := ⟨.hbm, 227, rfl⟩
abbrev main_call2_v0 : Ref sig .tc := ⟨.hbm, 228, rfl⟩
abbrev main_call2_cst_0 : Ref sig .tc := ⟨.hbm, 229, rfl⟩
abbrev main_call2_v1 : Ref sig .tc := ⟨.hbm, 230, rfl⟩
abbrev main_call2_v2 : Ref sig .tc := ⟨.hbm, 231, rfl⟩
abbrev main_call2_v3 : Ref sig .tc := ⟨.hbm, 232, rfl⟩
abbrev main_call2_v4 : Ref sig .tc := ⟨.hbm, 233, rfl⟩
abbrev main_call2_v5 : Ref sig .tc := ⟨.hbm, 234, rfl⟩
abbrev main_call2_v6 : Ref sig .tc := ⟨.hbm, 235, rfl⟩
abbrev main_call2_cst_1 : Ref sig .tc := ⟨.hbm, 236, rfl⟩
abbrev main_call2_v7 : Ref sig .tc := ⟨.hbm, 237, rfl⟩
abbrev main_call2_v8 : Ref sig .tc := ⟨.hbm, 238, rfl⟩
abbrev main_call2_v9 : Ref sig .tc := ⟨.hbm, 239, rfl⟩
abbrev main_call2_v10 : Ref sig .tc := ⟨.hbm, 240, rfl⟩
abbrev main_v175 : Ref sig .tc := ⟨.hbm, 241, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  reducesTo_S1600000x32_S1600000_d1 : S1600000x32.ReducesTo [1] S1600000
  h_S_ : 0 < S_.numel
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  reducesTo_S100000x32_S100000_d1 : S100000x32.ReducesTo [1] S100000
  dot_S100000x512_S512x64_S100000x64_1_0_0_1_n_n_wf : DotDims.WF S100000x512 S512x64 S100000x64 [1] [0] [0] [1] [] []
  dot_S100000x64_S64x32_S100000x32_1_0_0_1_n_n_wf : DotDims.WF S100000x64 S64x32 S100000x32 [1] [0] [0] [1] [] []
  scatter_S100000_S1600000x1_S1600000_n_0_0_1_wf : ScatterDims.WF S100000 S1600000x1 S1600000 [] [0] [0] 1
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf

class Facts : Prop extends Facts₀ where

variable [Facts]
-- ==== Proof.KHost.lean ====
/-
  The host side of the program around its one region: the lines before it (two slices of the edge list and two
  bias reshapes), the 221 lines after it (degrees, two propagation rounds, the log-softmax), and the facts the
  launch theorem asks of them — every line touches unscoped TensorCore buffers only, allocates nothing, and
  writes neither an array the region stages nor an argument of the program. From these the argument arrays end
  as they were launched.
-/
import proofs.«150445_j33603824124481_1_alg».proof.Proof.Gen.Kernel.Launch
import Idealize.ShloMosaic.Lib.Pipeline.FrameBody
import Idealize.ShloMosaic.Lib.Pipeline.FrameSuffix

set_option maxRecDepth 16384

noncomputable section

namespace Cert.Kernel.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The buffers as the region finds them -/

/-- Core `c`'s buffer contents when the region is entered: the launch contents after the six lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The lines after the region, stretch by stretch. -/
abbrev tailOps : List (List (HloOp τ sig (Elt F))) := [hostOps1, hostOps1_1, hostOps1_2, hostOps1_3]

/-! ## No line allocates -/

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
set_option maxHeartbeats 4000000 in
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor

/-! ## @main is the earlier lines, the region, the later lines -/

set_option maxRecDepth 100000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] [hostOps1, hostOps1_1, hostOps1_2, hostOps1_3]
    (by simp only [List.Forall]; exact hostOps0_sub) (by simp only [List.Forall]; exact fresh0) main_chain

/-- The later lines touch the region's arrays and the buffers that bypass it only: with nothing prefetched these are
    all the unscoped TensorCore references. -/
theorem tail_sub : ∀ ops ∈ ([hostOps1, hostOps1_1, hostOps1_2, hostOps1_3] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

theorem tail_fresh : ∀ ops ∈ ([hostOps1, hostOps1_1, hostOps1_2, hostOps1_3] : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop

/-! ## What no line writes -/

/-- The program's six arguments and the three buffers the region stages besides them (the two bias rows and its
    result). Every line writes its own result buffer, which is none of these. -/
abbrev kept : List (Ref sig .tc) := [main_arg0, main_arg1, main_arg2, main_arg3, main_arg4, main_arg5, main_v4, main_v5, main_v6]

/-- The same nine with the bias rows left out: what the lines BEFORE the region do not write (they write the rows). -/
abbrev keptBefore : List (Ref sig .tc) := [main_arg0, main_arg1, main_arg2, main_arg3, main_arg4, main_arg5]

theorem notWritten0 (r : Ref sig .tc) (hr : r ∈ keptBefore) :
    (hostOps0 : List (HloOp τ sig (Elt F))).Forall fun op => Proc.devRef .tc r ∉ op.writes := by
  simp only [List.mem_cons, List.mem_nil_iff, or_false] at hr
  rcases hr with rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem notWritten1 (r : Ref sig .tc) (hr : r ∈ kept) :
    (hostOps1 : List (HloOp τ sig (Elt F))).Forall fun op => Proc.devRef .tc r ∉ op.writes := by
  simp only [List.mem_cons, List.mem_nil_iff, or_false] at hr
  rcases hr with rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)
theorem notWritten1_1 (r : Ref sig .tc) (hr : r ∈ kept) :
    (hostOps1_1 : List (HloOp τ sig (Elt F))).Forall fun op => Proc.devRef .tc r ∉ op.writes := by
  simp only [List.mem_cons, List.mem_nil_iff, or_false] at hr
  rcases hr with rfl | rfl | rfl | rfl | rfl | rfl | rfl | rfl | rfl
  all_goals
    simp only [hostOps1_1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)
set_option maxHeartbeats 40000000 in
theorem notWritten1_2 (r : Ref sig .tc) (hr : r ∈ kept) :
    (hostOps1_2 : List (HloOp τ sig (Elt F))).Forall fun op => Proc.devRef .tc r ∉ op.writes := by
  simp only [List.mem_cons, List.mem_nil_iff, or_false] at hr
  rcases hr with rfl | rfl | rfl | rfl | rfl | rfl | rfl | rfl | rfl
  all_goals
    simp only [hostOps1_2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)
theorem notWritten1_3 (r : Ref sig .tc) (hr : r ∈ kept) :
    (hostOps1_3 : List (HloOp τ sig (Elt F))).Forall fun op => Proc.devRef .tc r ∉ op.writes := by
  simp only [List.mem_cons, List.mem_nil_iff, or_false] at hr
  rcases hr with rfl | rfl | rfl | rfl | rfl | rfl | rfl | rfl | rfl
  all_goals
    simp only [hostOps1_3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)

/-- No later line writes one of the nine. -/
theorem tail_notWritten (r : Ref sig .tc) (hr : r ∈ kept) :
    ∀ ops ∈ ([hostOps1, hostOps1_1, hostOps1_2, hostOps1_3] : List (List (HloOp τ sig (Elt F)))), ∀ op ∈ ops, Proc.devRef .tc r ∉ op.writes := by
  intro ops hops op hop
  simp only [List.mem_cons, List.mem_nil_iff, or_false] at hops
  rcases hops with rfl | rfl | rfl | rfl
  · exact (List.forall_iff_forall_mem.mp (notWritten1 r hr)) op hop
  · exact (List.forall_iff_forall_mem.mp (notWritten1_1 r hr)) op hop
  · exact (List.forall_iff_forall_mem.mp (notWritten1_2 r hr)) op hop
  · exact (List.forall_iff_forall_mem.mp (notWritten1_3 r hr)) op hop

/-- In particular none writes an array the region stages. -/
theorem tail_keeps : ∀ ops ∈ ([hostOps1, hostOps1_1, hostOps1_2, hostOps1_3] : List (List (HloOp τ sig (Elt F)))), ∀ op ∈ ops,
    ∀ w, Proc.devRef .tc (Pipeline.arrRef spec0 w) ∉ op.writes :=
  fun ops hops op hop w => tail_notWritten (Pipeline.arrRef spec0 w) ((by decide : ∀ w, Pipeline.arrRef spec0 w ∈ kept) w) ops hops op hop

/-- So each of the nine holds after the later lines what it held before them. -/
theorem after_tail_kept (W : Valuation τ sig (Elt F)) (r : Ref sig .tc) (hr : r ∈ kept) :
    StableHlo.after (List.flatten [hostOps1, hostOps1_1, hostOps1_2, hostOps1_3]) W (Proc.devRef .tc r) = W (Proc.devRef .tc r) :=
  StableHlo.after_of_forall_not_mem _ _ fun op hop => by
    obtain ⟨ops, hops, hop⟩ := List.mem_flatten.mp hop
    exact tail_notWritten r hr ops hops op hop

/-- And the region finds each argument as launched. -/
theorem V_arg (c : Dev nD) (r : Ref sig .tc) (hr : r ∈ keptBefore) : V m c r = m ((c : Thread nD τ).loc r) :=
  StableHlo.after_of_forall_not_mem (b := Proc.devRef .tc r) _ _ (by
    rw [show List.flatten [(hostOps0 : List (HloOp τ sig (Elt F)))] = hostOps0 from List.append_nil _]
    exact List.forall_iff_forall_mem.mp (notWritten0 r hr))

/-! ## The arguments end as launched -/

/-- An argument the region does not stage, after the later lines: untouched by them, no array of the region, and
    untouched by the earlier lines. -/
theorem tail_arg (dats : (p : Fin 1) → (c : Dev nD) → Dat τ (Elt F) Unit ℕ (UR sig nD τ) ℕ (cfgs p) c) (c : Dev nD)
    (r : Ref sig .tc) (hr : r ∈ keptBefore) (hk : r ∈ kept) (hne : ∀ w, Pipeline.arrRef spec0 w ≠ r) :
    Pipeline.afterTail₀ cfgs dats 0 (V0 m) [hostOps1, hostOps1_1, hostOps1_2, hostOps1_3] c r = m ((c : Thread nD τ).loc r) := by
  unfold Pipeline.afterTail₀
  rw [after_tail_kept _ r hk, Pipeline.withArrays_of_ne _ c (V0 m c) _ r hne]
  exact V_arg m c r hr

/-- From a frame run to the frame claim's post: a staged argument is an input array of the region, so it ends at its
    region-entry contents; an argument the region does not stage is one of the buffers the later lines leave alone. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) [hostOps1, hostOps1_1, hostOps1_2, hostOps1_3]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_arg m c main_arg0 (by decide)))),
     ((h c).2 main_arg1 (Pipeline.mem_restRefs_of main_arg1 (by decide) (by decide))).trans (tail_arg m dats c main_arg1 (by decide) (by decide) (by decide)),
     ((h c).1 1).trans (((dats 0 c).arrAt_in 1 rfl _).trans ((hA c 1).trans (V_arg m c main_arg2 (by decide)))),
     ((h c).2 main_arg3 (Pipeline.mem_restRefs_of main_arg3 (by decide) (by decide))).trans (tail_arg m dats c main_arg3 (by decide) (by decide) (by decide)),
     ((h c).1 3).trans (((dats 0 c).arrAt_in 3 rfl _).trans ((hA c 3).trans (V_arg m c main_arg4 (by decide)))),
     ((h c).2 main_arg5 (Pipeline.mem_restRefs_of main_arg5 (by decide) (by decide))).trans (tail_arg m dats c main_arg5 (by decide) (by decide) (by decide))⟩) h

end Cert.Kernel.Mlp

end
-- ==== Proof.KRegion.lean ====
/-
  The region of the program: one call of the two-layer perceptron body at each of the 25 grid points, on a block of
  4000 rows of the input, the whole of both weight matrices and both bias rows, writing a block of 4000 rows of the
  result. The body loads its five inputs whole, computes, and stores its result whole; so what it leaves in the output
  window's buffer is one pure function of the five input blocks (`blockOut`), and the inputs stay as they were.
  From that: the data the launch theorem asks for, the body's obligation at every point, the run of @main, and the
  frame — the arguments end as launched.
-/
import proofs.«150445_j33603824124481_1_alg».proof.Proof.KHost
import proofs.«150445_j33603824124481_1_alg».proof.Proof.Gen.Kernel.Skeleton
import proofs.«150445_j33603824124481_1_alg».proof.Proof.Gen.Kernel.Points
import Idealize.ShloMosaic.Lib.Tactic

set_option maxRecDepth 16384

noncomputable section

namespace Cert.Kernel.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds the window's block at every point, whether the pipeline fetched it
    there or not (the four parameter windows are fetched once: their block index never moves), for any proof data over
    the region-entry arrays whose body leaves input blocks in place. -/
theorem before_in0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

abbrev rX : Rect S4000x512 := Rect.unit (s := S4000x512) ![0, 0] S4000x512.size inb_S4000x512_S4000x512_0_0
abbrev rW1 : Rect S512x64 := Rect.unit (s := S512x64) ![0, 0] S512x64.size inb_S512x64_S512x64_0_0
abbrev rB1 : Rect S1x64 := Rect.unit (s := S1x64) ![0, 0] S1x64.size inb_S1x64_S1x64_0_0
abbrev rW2 : Rect S64x32 := Rect.unit (s := S64x32) ![0, 0] S64x32.size inb_S64x32_S64x32_0_0
abbrev rB2 : Rect S1x32 := Rect.unit (s := S1x32) ![0, 0] S1x32.size inb_S1x32_S1x32_0_0
abbrev rOut : Rect S4000x32 := Rect.unit (s := S4000x32) ![0, 0] S4000x32.size inb_S4000x32_S4000x32_0_0

/-- The output buffer after the body: its one whole store, of the perceptron of the five loaded blocks. -/
def blockOut (x : Vec F S4000x512 .f32) (w1 : Vec F S512x64 .f32) (b1 : Vec F S1x64 .f32) (w2 : Vec F S64x32 .f32) (b2 : Vec F S1x32 .f32) :
    Vec F S4000x32 .f32 :=
  View.canon [⟨rOut, k0_pay1 (View.ld x rX) (View.ld w1 rW1) (View.ld b1 rB1) (View.ld w2 rW2) (View.ld b2 rB2)⟩]

/-- The one store covers the buffer. -/
theorem out_cover (p0 : Vec F S4000x32 .f32) (y : S4000x32.Idx) :
    ∃ pc ∈ ([⟨rOut, p0⟩] : List (View.Piece (Elt F) S4000x32 .f32)), y ∈ pc.1.set :=
  View.cover_of_tiled [⟨rOut, p0⟩] S4000x32.size (by rfl) y

/-! ## The body's triple -/

set_option maxHeartbeats 4000000 in
/-- On whole staging memrefs — the five inputs' at contents `x … b2`, the output's at anything — the body runs to its
    continuation holding the inputs as they were and the output at `blockOut` of them. (It also loads the output
    buffer before storing into it; the value is not used.) -/
theorem body_run (c : Dev nD) (E : Set ℕ) (i : grid0.Coords)
    (a1 : Memref sig .tc .vmem S4000x512 .f32) (h1 : a1.IsWhole) (a2 : Memref sig .tc .vmem S512x64 .f32) (h2 : a2.IsWhole)
    (a3 : Memref sig .tc .vmem S1x64 .f32) (h3 : a3.IsWhole) (a4 : Memref sig .tc .vmem S64x32 .f32) (h4 : a4.IsWhole)
    (a5 : Memref sig .tc .vmem S1x32 .f32) (h5 : a5.IsWhole) (a6 : Memref sig .tc .vmem S4000x32 .f32) (h6 : a6.IsWhole)
    (x : Vec F S4000x512 .f32) (w1 : Vec F S512x64 .f32) (b1 : Vec F S1x64 .f32) (w2 : Vec F S64x32 .f32) (b2 : Vec F S1x32 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (blockOut x w1 b1 w2 b2)) -∗ K ⟨⟩))
      ⊢ wp frame (wpE (defs₀ (F := F)) Variants.none c none) E (cc0__mlp_kernel i a1 h1 a2 h2 a3 h3 a4 h4 a5 h5 a6 h6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The proof data -/

/-- On core `c`: the arrays as the region finds them; after the body at point `t` each input's buffer at its block and
    the output's at `blockOut` of the five input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockOut (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_out (c : Dev nD) (t : Fin cfg0.N) : (dats m 0 c).after 5 t
    = blockOut (blockAt m c 0 t) (blockAt m c 1 t) (blockAt m c 2 t) (blockAt m c 3 t) (blockAt m c 4 t) := by dsimp only [dats]

theorem before_in0 (c : Dev nD) (t : Fin cfg0.N) (d) : (dats m 0 c).before 0 t d = blockAt m c 0 t :=
  before_in0_of m (dats m 0 c) (A_eq m c 0) (after_in0 m c) t d
theorem before_in1 (c : Dev nD) (t : Fin cfg0.N) (d) : (dats m 0 c).before 1 t d = blockAt m c 1 t :=
  before_in1_of m (dats m 0 c) (A_eq m c 1) (after_in1 m c) t d
theorem before_in2 (c : Dev nD) (t : Fin cfg0.N) (d) : (dats m 0 c).before 2 t d = blockAt m c 2 t :=
  before_in2_of m (dats m 0 c) (A_eq m c 2) (after_in2 m c) t d
theorem before_in3 (c : Dev nD) (t : Fin cfg0.N) (d) : (dats m 0 c).before 3 t d = blockAt m c 3 t :=
  before_in3_of m (dats m 0 c) (A_eq m c 3) (after_in3 m c) t d
theorem before_in4 (c : Dev nD) (t : Fin cfg0.N) (d) : (dats m 0 c).before 4 t d = blockAt m c 4 t :=
  before_in4_of m (dats m 0 c) (A_eq m c 4) (after_in4 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at m c t

/-! ## The run and the frame -/

set_option maxRecDepth 100000 in
set_option backward.isDefEq.respectTransparency.types false in
/-- Every weakly fair execution of @main terminates; at the end every array of the region holds what the proof data
    compute, and every other unscoped buffer what the later lines leave there. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := tail_sub) (hfresh := tail_fresh) (hkeep := tail_keeps)
    (hmain := hmain m Variants.none) (hA := A_eq m) (hΦ := fun _ _ => rfl)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  args_kept m ρ (dats m) (A_eq m) (run_main m ρ)

end Cert.Kernel.Mlp

end
-- ==== Proof.KiHost.lean ====
/-
  The host side of the program around its one region: the lines before it (two slices of the edge list and two
  bias reshapes), the 221 lines after it (degrees, two propagation rounds, the log-softmax), and the facts the
  launch theorem asks of them — every line touches unscoped TensorCore buffers only, allocates nothing, and
  writes neither an array the region stages nor an argument of the program. From these the argument arrays end
  as they were launched.
-/
import proofs.«150445_j33603824124481_1_alg».proof.Proof.Gen.KernelIdeal.Launch
import Idealize.ShloMosaic.Lib.Pipeline.FrameBody
import Idealize.ShloMosaic.Lib.Pipeline.FrameSuffix

set_option maxRecDepth 16384

noncomputable section

namespace Cert.KernelIdeal.Mlp

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The buffers as the region finds them -/

/-- Core `c`'s buffer contents when the region is entered: the launch contents after the six lines before it. -/
abbrev V0 (c : Dev nD) : Valuation τ sig (Elt F) := StableHlo.after (List.flatten [hostOps0]) (fun b => m (c, b))
/-- The same, read at a TensorCore reference. -/
abbrev V (c : Dev nD) (b : Ref sig .tc) : Buf (Elt F) ((c : Thread nD τ).loc b) := V0 m c (Proc.devRef .tc b)

/-- The lines after the region, stretch by stretch. -/
abbrev tailOps : List (List (HloOp τ sig (Elt F))) := [hostOps1, hostOps1_1, hostOps1_2, hostOps1_3]

/-! ## No line allocates -/

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
set_option maxHeartbeats 4000000 in
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor

/-! ## @main is the earlier lines, the region, the later lines -/

set_option maxRecDepth 100000 in
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] [hostOps1, hostOps1_1, hostOps1_2, hostOps1_3]
    (by simp only [List.Forall]; exact hostOps0_sub) (by simp only [List.Forall]; exact fresh0) main_chain

/-- The later lines touch the region's arrays and the buffers that bypass it only: with nothing prefetched these are
    all the unscoped TensorCore references. -/
theorem tail_sub : ∀ ops ∈ ([hostOps1, hostOps1_1, hostOps1_2, hostOps1_3] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

theorem tail_fresh : ∀ ops ∈ ([hostOps1, hostOps1_1, hostOps1_2, hostOps1_3] : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp fresh1) op hop
  · exact (List.forall_iff_forall_mem.mp fresh1_1) op hop
  · exact (List.forall_iff_forall_mem.mp fresh1_2) op hop
  · exact (List.forall_iff_forall_mem.mp fresh1_3) op hop

/-! ## What no line writes -/

/-- The program's six arguments and the three buffers the region stages besides them (the two bias rows and its
    result). Every line writes its own result buffer, which is none of these. -/
abbrev kept : List (Ref sig .tc) := [main_arg0, main_arg1, main_arg2, main_arg3, main_arg4, main_arg5, main_v4, main_v5, main_v6]

/-- The same nine with the bias rows left out: what the lines BEFORE the region do not write (they write the rows). -/
abbrev keptBefore : List (Ref sig .tc) := [main_arg0, main_arg1, main_arg2, main_arg3, main_arg4, main_arg5]

theorem notWritten0 (r : Ref sig .tc) (hr : r ∈ keptBefore) :
    (hostOps0 : List (HloOp τ sig (Elt F))).Forall fun op => Proc.devRef .tc r ∉ op.writes := by
  simp only [List.mem_cons, List.mem_nil_iff, or_false] at hr
  rcases hr with rfl | rfl | rfl | rfl | rfl | rfl
  all_goals
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)

theorem notWritten1 (r : Ref sig .tc) (hr : r ∈ kept) :
    (hostOps1 : List (HloOp τ sig (Elt F))).Forall fun op => Proc.devRef .tc r ∉ op.writes := by
  simp only [List.mem_cons, List.mem_nil_iff, or_false] at hr
  rcases hr with rfl | rfl | rfl | rfl | rfl | rfl | rfl | rfl | rfl
  all_goals
    simp only [hostOps1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)
theorem notWritten1_1 (r : Ref sig .tc) (hr : r ∈ kept) :
    (hostOps1_1 : List (HloOp τ sig (Elt F))).Forall fun op => Proc.devRef .tc r ∉ op.writes := by
  simp only [List.mem_cons, List.mem_nil_iff, or_false] at hr
  rcases hr with rfl | rfl | rfl | rfl | rfl | rfl | rfl | rfl | rfl
  all_goals
    simp only [hostOps1_1, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)
set_option maxHeartbeats 40000000 in
theorem notWritten1_2 (r : Ref sig .tc) (hr : r ∈ kept) :
    (hostOps1_2 : List (HloOp τ sig (Elt F))).Forall fun op => Proc.devRef .tc r ∉ op.writes := by
  simp only [List.mem_cons, List.mem_nil_iff, or_false] at hr
  rcases hr with rfl | rfl | rfl | rfl | rfl | rfl | rfl | rfl | rfl
  all_goals
    simp only [hostOps1_2, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)
theorem notWritten1_3 (r : Ref sig .tc) (hr : r ∈ kept) :
    (hostOps1_3 : List (HloOp τ sig (Elt F))).Forall fun op => Proc.devRef .tc r ∉ op.writes := by
  simp only [List.mem_cons, List.mem_nil_iff, or_false] at hr
  rcases hr with rfl | rfl | rfl | rfl | rfl | rfl | rfl | rfl | rfl
  all_goals
    simp only [hostOps1_3, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)

/-- No later line writes one of the nine. -/
theorem tail_notWritten (r : Ref sig .tc) (hr : r ∈ kept) :
    ∀ ops ∈ ([hostOps1, hostOps1_1, hostOps1_2, hostOps1_3] : List (List (HloOp τ sig (Elt F)))), ∀ op ∈ ops, Proc.devRef .tc r ∉ op.writes := by
  intro ops hops op hop
  simp only [List.mem_cons, List.mem_nil_iff, or_false] at hops
  rcases hops with rfl | rfl | rfl | rfl
  · exact (List.forall_iff_forall_mem.mp (notWritten1 r hr)) op hop
  · exact (List.forall_iff_forall_mem.mp (notWritten1_1 r hr)) op hop
  · exact (List.forall_iff_forall_mem.mp (notWritten1_2 r hr)) op hop
  · exact (List.forall_iff_forall_mem.mp (notWritten1_3 r hr)) op hop

/-- In particular none writes an array the region stages. -/
theorem tail_keeps : ∀ ops ∈ ([hostOps1, hostOps1_1, hostOps1_2, hostOps1_3] : List (List (HloOp τ sig (Elt F)))), ∀ op ∈ ops,
    ∀ w, Proc.devRef .tc (Pipeline.arrRef spec0 w) ∉ op.writes :=
  fun ops hops op hop w => tail_notWritten (Pipeline.arrRef spec0 w) ((by decide : ∀ w, Pipeline.arrRef spec0 w ∈ kept) w) ops hops op hop

/-- So each of the nine holds after the later lines what it held before them. -/
theorem after_tail_kept (W : Valuation τ sig (Elt F)) (r : Ref sig .tc) (hr : r ∈ kept) :
    StableHlo.after (List.flatten [hostOps1, hostOps1_1, hostOps1_2, hostOps1_3]) W (Proc.devRef .tc r) = W (Proc.devRef .tc r) :=
  StableHlo.after_of_forall_not_mem _ _ fun op hop => by
    obtain ⟨ops, hops, hop⟩ := List.mem_flatten.mp hop
    exact tail_notWritten r hr ops hops op hop

/-- And the region finds each argument as launched. -/
theorem V_arg (c : Dev nD) (r : Ref sig .tc) (hr : r ∈ keptBefore) : V m c r = m ((c : Thread nD τ).loc r) :=
  StableHlo.after_of_forall_not_mem (b := Proc.devRef .tc r) _ _ (by
    rw [show List.flatten [(hostOps0 : List (HloOp τ sig (Elt F)))] = hostOps0 from List.append_nil _]
    exact List.forall_iff_forall_mem.mp (notWritten0 r hr))

/-! ## The arguments end as launched -/

/-- An argument the region does not stage, after the later lines: untouched by them, no array of the region, and
    untouched by the earlier lines. -/
theorem tail_arg (dats : (p : Fin 1) → (c : Dev nD) → Dat τ (Elt F) Unit ℕ (UR sig nD τ) ℕ (cfgs p) c) (c : Dev nD)
    (r : Ref sig .tc) (hr : r ∈ keptBefore) (hk : r ∈ kept) (hne : ∀ w, Pipeline.arrRef spec0 w ≠ r) :
    Pipeline.afterTail₀ cfgs dats 0 (V0 m) [hostOps1, hostOps1_1, hostOps1_2, hostOps1_3] c r = m ((c : Thread nD τ).loc r) := by
  unfold Pipeline.afterTail₀
  rw [after_tail_kept _ r hk, Pipeline.withArrays_of_ne _ c (V0 m c) _ r hne]
  exact V_arg m c r hr

/-- From a frame run to the frame claim's post: a staged argument is an input array of the region, so it ends at its
    region-entry contents; an argument the region does not stage is one of the buffers the later lines leave alone. -/
theorem args_kept (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ)
      (Pipeline.FramePost cfgs dats 0 (Pipeline.afterTail₀ cfgs dats 0 (V0 m) [hostOps1, hostOps1_1, hostOps1_2, hostOps1_3]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_arg m c main_arg0 (by decide)))),
     ((h c).2 main_arg1 (Pipeline.mem_restRefs_of main_arg1 (by decide) (by decide))).trans (tail_arg m dats c main_arg1 (by decide) (by decide) (by decide)),
     ((h c).1 1).trans (((dats 0 c).arrAt_in 1 rfl _).trans ((hA c 1).trans (V_arg m c main_arg2 (by decide)))),
     ((h c).2 main_arg3 (Pipeline.mem_restRefs_of main_arg3 (by decide) (by decide))).trans (tail_arg m dats c main_arg3 (by decide) (by decide) (by decide)),
     ((h c).1 3).trans (((dats 0 c).arrAt_in 3 rfl _).trans ((hA c 3).trans (V_arg m c main_arg4 (by decide)))),
     ((h c).2 main_arg5 (Pipeline.mem_restRefs_of main_arg5 (by decide) (by decide))).trans (tail_arg m dats c main_arg5 (by decide) (by decide) (by decide))⟩) h

end Cert.KernelIdeal.Mlp

end
-- ==== Proof.KiRegion.lean ====
/-
  The region of the program: one call of the two-layer perceptron body at each of the 25 grid points, on a block of
  4000 rows of the input, the whole of both weight matrices and both bias rows, writing a block of 4000 rows of the
  result. The body loads its five inputs whole, computes, and stores its result whole; so what it leaves in the output
  window's buffer is one pure function of the five input blocks (`blockOut`), and the inputs stay as they were.
  From that: the data the launch theorem asks for, the body's obligation at every point, the run of @main, and the
  frame — the arguments end as launched.
-/
import proofs.«150445_j33603824124481_1_alg».proof.Proof.KiHost
import proofs.«150445_j33603824124481_1_alg».proof.Proof.Gen.KernelIdeal.Skeleton
import proofs.«150445_j33603824124481_1_alg».proof.Proof.Gen.KernelIdeal.Points
import Idealize.ShloMosaic.Lib.Tactic

set_option maxRecDepth 16384

noncomputable section

namespace Cert.KernelIdeal.Mlp

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds the window's block at every point, whether the pipeline fetched it
    there or not (the four parameter windows are fetched once: their block index never moves), for any proof data over
    the region-entry arrays whose body leaves input blocks in place. -/
theorem before_in0_of {c : Dev nD} (dat : Dat τ (Elt F) Unit ℕ (UR sig nD τ) ℕ cfg0 c) (hA : dat.A 0 = V m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem before_in1_of {c : Dev nD} (dat : Dat τ (Elt F) Unit ℕ (UR sig nD τ) ℕ cfg0 c) (hA : dat.A 1 = V m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem before_in2_of {c : Dev nD} (dat : Dat τ (Elt F) Unit ℕ (UR sig nD τ) ℕ cfg0 c) (hA : dat.A 2 = V m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem before_in3_of {c : Dev nD} (dat : Dat τ (Elt F) Unit ℕ (UR sig nD τ) ℕ cfg0 c) (hA : dat.A 3 = V m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem before_in4_of {c : Dev nD} (dat : Dat τ (Elt F) Unit ℕ (UR sig nD τ) ℕ cfg0 c) (hA : dat.A 4 = V m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## What the body leaves in the output window's buffer -/

abbrev rX : Rect S4000x512 := Rect.unit (s := S4000x512) ![0, 0] S4000x512.size inb_S4000x512_S4000x512_0_0
abbrev rW1 : Rect S512x64 := Rect.unit (s := S512x64) ![0, 0] S512x64.size inb_S512x64_S512x64_0_0
abbrev rB1 : Rect S1x64 := Rect.unit (s := S1x64) ![0, 0] S1x64.size inb_S1x64_S1x64_0_0
abbrev rW2 : Rect S64x32 := Rect.unit (s := S64x32) ![0, 0] S64x32.size inb_S64x32_S64x32_0_0
abbrev rB2 : Rect S1x32 := Rect.unit (s := S1x32) ![0, 0] S1x32.size inb_S1x32_S1x32_0_0
abbrev rOut : Rect S4000x32 := Rect.unit (s := S4000x32) ![0, 0] S4000x32.size inb_S4000x32_S4000x32_0_0

/-- The output buffer after the body: its one whole store, of the perceptron of the five loaded blocks. -/
def blockOut (x : Vec F S4000x512 .f32) (w1 : Vec F S512x64 .f32) (b1 : Vec F S1x64 .f32) (w2 : Vec F S64x32 .f32) (b2 : Vec F S1x32 .f32) :
    Vec F S4000x32 .f32 :=
  View.canon [⟨rOut, k0_pay1 (View.ld x rX) (View.ld w1 rW1) (View.ld b1 rB1) (View.ld w2 rW2) (View.ld b2 rB2)⟩]

/-- The one store covers the buffer. -/
theorem out_cover (p0 : Vec F S4000x32 .f32) (y : S4000x32.Idx) :
    ∃ pc ∈ ([⟨rOut, p0⟩] : List (View.Piece (Elt F) S4000x32 .f32)), y ∈ pc.1.set :=
  View.cover_of_tiled [⟨rOut, p0⟩] S4000x32.size (by rfl) y

/-! ## The body's triple -/

set_option maxHeartbeats 4000000 in
/-- On whole staging memrefs — the five inputs' at contents `x … b2`, the output's at anything — the body runs to its
    continuation holding the inputs as they were and the output at `blockOut` of them. (It also loads the output
    buffer before storing into it; the value is not used.) -/
theorem body_run (c : Dev nD) (E : Set ℕ) (i : grid0.Coords)
    (a1 : Memref sig .tc .vmem S4000x512 .f32) (h1 : a1.IsWhole) (a2 : Memref sig .tc .vmem S512x64 .f32) (h2 : a2.IsWhole)
    (a3 : Memref sig .tc .vmem S1x64 .f32) (h3 : a3.IsWhole) (a4 : Memref sig .tc .vmem S64x32 .f32) (h4 : a4.IsWhole)
    (a5 : Memref sig .tc .vmem S1x32 .f32) (h5 : a5.IsWhole) (a6 : Memref sig .tc .vmem S4000x32 .f32) (h6 : a6.IsWhole)
    (x : Vec F S4000x512 .f32) (w1 : Vec F S512x64 .f32) (b1 : Vec F S1x64 .f32) (w2 : Vec F S64x32 .f32) (b2 : Vec F S1x32 .f32)
    (K : PUnit → sProp 𝕄) :
    iprop(owns (c : Thread nD τ) a1 fullShare x ∗ owns (c : Thread nD τ) a2 fullShare w1 ∗ owns (c : Thread nD τ) a3 fullShare b1
        ∗ owns (c : Thread nD τ) a4 fullShare w2 ∗ owns (c : Thread nD τ) a5 fullShare b2 ∗ (∃ d, owns (c : Thread nD τ) a6 fullShare d)
        ∗ (iprop(owns (c : Thread nD τ) a1 fullShare x ∗ owns (c : Thread nD τ) a2 fullShare w1 ∗ owns (c : Thread nD τ) a3 fullShare b1
            ∗ owns (c : Thread nD τ) a4 fullShare w2 ∗ owns (c : Thread nD τ) a5 fullShare b2
            ∗ owns (c : Thread nD τ) a6 fullShare (blockOut x w1 b1 w2 b2)) -∗ K ⟨⟩))
      ⊢ wp frame (wpE (defs₀ (F := F)) Variants.none c none) E (cc0__mlp_kernel i a1 h1 a2 h2 a3 h3 a4 h4 a5 h5 a6 h6) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (out_cover _)

/-! ## The proof data -/

/-- On core `c`: the arrays as the region finds them; after the body at point `t` each input's buffer at its block and
    the output's at `blockOut` of the five input blocks; the invariant is the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockOut (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_out (c : Dev nD) (t : Fin cfg0.N) : (dats m 0 c).after 5 t
    = blockOut (blockAt m c 0 t) (blockAt m c 1 t) (blockAt m c 2 t) (blockAt m c 3 t) (blockAt m c 4 t) := by dsimp only [dats]

theorem before_in0 (c : Dev nD) (t : Fin cfg0.N) (d) : (dats m 0 c).before 0 t d = blockAt m c 0 t :=
  before_in0_of m (dats m 0 c) (A_eq m c 0) (after_in0 m c) t d
theorem before_in1 (c : Dev nD) (t : Fin cfg0.N) (d) : (dats m 0 c).before 1 t d = blockAt m c 1 t :=
  before_in1_of m (dats m 0 c) (A_eq m c 1) (after_in1 m c) t d
theorem before_in2 (c : Dev nD) (t : Fin cfg0.N) (d) : (dats m 0 c).before 2 t d = blockAt m c 2 t :=
  before_in2_of m (dats m 0 c) (A_eq m c 2) (after_in2 m c) t d
theorem before_in3 (c : Dev nD) (t : Fin cfg0.N) (d) : (dats m 0 c).before 3 t d = blockAt m c 3 t :=
  before_in3_of m (dats m 0 c) (A_eq m c 3) (after_in3 m c) t d
theorem before_in4 (c : Dev nD) (t : Fin cfg0.N) (d) : (dats m 0 c).before 4 t d = blockAt m c 4 t :=
  before_in4_of m (dats m 0 c) (A_eq m c 4) (after_in4 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4]
  rw [show (dats m 0 c).Φ t.succ = (dats m 0 c).Φ t.castSucc from rfl,
    show (dats m 0 c).owesAt () t.succ = (dats m 0 c).owesAt () t.castSucc from rfl,
    after_in0, after_in1, after_in2, after_in3, after_in4, after_out]
  iintro ⟨HΦ, Ho, ⟨%d0, H0⟩, ⟨%d1, H1⟩, ⟨%d2, H2⟩, ⟨%d3, H3⟩, ⟨%d4, H4⟩, ⟨%d5, H5⟩⟩
  iapply (body_run c Set.univ (grid0.coords t) _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : BodyObligation (dats (F := F) m 0 c) (defs₀ (F := F)) Variants.none () Set.univ := fun t => by
  rw [bigSep_W0, bigSep_W0]
  exact body_at m c t

/-! ## The run and the frame -/

set_option maxRecDepth 100000 in
set_option backward.isDefEq.respectTransparency.types false in
/-- Every weakly fair execution of @main terminates; at the end every array of the region holds what the proof data
    compute, and every other unscoped buffer what the later lines leave there. -/
theorem run_main : θ_run defs (onTc (τ := τ) (main (F := F))) (s₀ m ρ)
    (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := tail_sub) (hfresh := tail_fresh) (hkeep := tail_keeps)
    (hmain := hmain m Variants.none) (hA := A_eq m) (hΦ := fun _ _ => rfl)

/-- The arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  args_kept m ρ (dats m) (A_eq m) (run_main m ρ)

end Cert.KernelIdeal.Mlp

end
-- ==== Proof.KiBlocks.lean ====
/-
  Where each window's block sits in its array. The grid has 25 points; at point t the input window is rows
  4000·t … 4000·t + 3999 of the input, the output window the same rows of the result, and the four parameter windows
  are their whole arrays. The two bias rows are the program's bias vectors reshaped to one row by the lines before
  the region.
-/
import proofs.«150445_j33603824124481_1_alg».proof.Proof.KiRegion
import Idealize.ShloMosaic.Lib.ValueIdx
import Idealize.ShloMosaic.Lib.Pipeline.Value

set_option maxRecDepth 16384

noncomputable section

namespace Cert.KernelIdeal.Mlp

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The printed index maps over the grid: the input and output windows move with the point along the rows, the
    parameter windows stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 25 := lt_of_lt_of_eq t.isLt (show cfg0.N = 25 from N_0)

/-- The bias rows as the region finds them. -/
theorem V_b1 (c : Dev nD) : V m c main_v4 = shapeCast S1x64 (m ((c : Thread nD τ).loc main_arg3)) shapeCasts_S64_S1x64 := by
  dsimp only [V, V0, hostOps0]
  simp only [List.flatten_cons, List.flatten_nil, List.append_nil]
  after_results; rfl
theorem V_b2 (c : Dev nD) : V m c main_v5 = shapeCast S1x32 (m ((c : Thread nD τ).loc main_arg5)) shapeCasts_S32_S1x32 := by
  dsimp only [V, V0, hostOps0]
  simp only [List.flatten_cons, List.flatten_nil, List.append_nil]
  after_results; rfl

/-- The two rows of the edge list as the region finds them: slices of the edge array, each reshaped to a vector. -/
theorem V_src (c : Dev nD) : V m c main_v1
    = shapeCast _ (extractStridedSlice S1x1600000 ![0, 0] (m ((c : Thread nD τ).loc main_arg1)) slices_S2x1600000_S1x1600000_0_0) shapeCasts_S1x1600000_S1600000 := by
  dsimp only [V, V0, hostOps0]
  simp only [List.flatten_cons, List.flatten_nil, List.append_nil]
  after_results; rfl
theorem V_dst (c : Dev nD) : V m c main_v3
    = shapeCast _ (extractStridedSlice S1x1600000 ![1, 0] (m ((c : Thread nD τ).loc main_arg1)) slices_S2x1600000_S1x1600000_1_0) shapeCasts_S1x1600000_S1600000 := by
  dsimp only [V, V0, hostOps0]
  simp only [List.flatten_cons, List.flatten_nil, List.append_nil]
  after_results; rfl

/-- Row p of the input block at point t is row 4000·t + p of the input. -/
theorem block_x (c : Dev nD) (t : Fin cfg0.N) (p : Fin 4000) (j : Fin 512) :
    blockAt m c 0 t (ix2 p j)
      = m ((c : Thread nD τ).loc main_arg0) (ix2 (⟨4000 * t.val + p.val, by have := point_lt t; have := p.isLt; omega⟩ : Fin 100000) j) := by
  unfold blockAt
  show V m c main_arg0 (((cfg0.win 0).blk t).view.emb (ix2 p j)) = _
  rw [V_arg m c main_arg0 (by decide)]
  refine congrArg _ (funext fun a => Fin.ext ?_)
  obtain ⟨e0, e1, -⟩ := idx_facts t
  match a with
  | ⟨0, _⟩ => show win0_0.index t (0 : Fin 2) * 4000 + 1 * p.val = 4000 * t.val + p.val; omega
  | ⟨1, _⟩ => show win0_0.index t (1 : Fin 2) * 512 + 1 * j.val = j.val; omega

/-- The first weight matrix's block is the matrix. -/
theorem block_w1 (c : Dev nD) (t : Fin cfg0.N) (j : Fin 512) (k : Fin 64) :
    blockAt m c 1 t (ix2 j k) = m ((c : Thread nD τ).loc main_arg2) (ix2 j k) := by
  unfold blockAt
  show V m c main_arg2 (((cfg0.win 1).blk t).view.emb (ix2 j k)) = _
  rw [V_arg m c main_arg2 (by decide)]
  refine congrArg _ (funext fun a => Fin.ext ?_)
  obtain ⟨-, -, e0, e1, -⟩ := idx_facts t
  match a with
  | ⟨0, _⟩ => show win0_1.index t (0 : Fin 2) * 512 + 1 * j.val = j.val; omega
  | ⟨1, _⟩ => show win0_1.index t (1 : Fin 2) * 64 + 1 * k.val = k.val; omega

/-- The second weight matrix's block is the matrix. -/
theorem block_w2 (c : Dev nD) (t : Fin cfg0.N) (k : Fin 64) (q : Fin 32) :
    blockAt m c 3 t (ix2 k q) = m ((c : Thread nD τ).loc main_arg4) (ix2 k q) := by
  unfold blockAt
  show V m c main_arg4 (((cfg0.win 3).blk t).view.emb (ix2 k q)) = _
  rw [V_arg m c main_arg4 (by decide)]
  refine congrArg _ (funext fun a => Fin.ext ?_)
  obtain ⟨-, -, -, -, -, -, e0, e1, -⟩ := idx_facts t
  match a with
  | ⟨0, _⟩ => show win0_3.index t (0 : Fin 2) * 64 + 1 * k.val = k.val; omega
  | ⟨1, _⟩ => show win0_3.index t (1 : Fin 2) * 32 + 1 * q.val = q.val; omega

/-- A vector reshaped to one row, read at (0, k), is the vector at k. -/
theorem row_of_vec {α : Type} {n : Nat} (v : (⟨1, ![n]⟩ : Shape).Idx → α) (h : (⟨1, ![n]⟩ : Shape).ShapeCasts ⟨2, ![1, n]⟩) (k : Fin n) :
    shapeCast ⟨2, ![1, n]⟩ v h (ix2 (0 : Fin 1) k) = v (ix1 k) :=
  shapeCast_apply v h (ix2 (0 : Fin 1) k) (ix1 k) (by
    rw [Shape.rowMajor_val_one, Shape.rowMajor_val_two]
    show k.val = 0 * n + k.val
    omega)

/-- The first bias row's block, at (0, k), is the bias vector at k. -/
theorem block_b1 (c : Dev nD) (t : Fin cfg0.N) (k : Fin 64) :
    blockAt m c 2 t (ix2 (0 : Fin 1) k) = m ((c : Thread nD τ).loc main_arg3) (ix1 k) := by
  unfold blockAt
  show V m c main_v4 (((cfg0.win 2).blk t).view.emb (ix2 (0 : Fin 1) k)) = _
  rw [V_b1 m c]
  refine Eq.trans (congrArg _ (funext fun a => Fin.ext ?_)) (row_of_vec _ _ k)
  obtain ⟨-, -, -, -, e0, e1, -⟩ := idx_facts t
  match a with
  | ⟨0, _⟩ => show win0_2.index t (0 : Fin 2) * 1 + 1 * 0 = 0; omega
  | ⟨1, _⟩ => show win0_2.index t (1 : Fin 2) * 64 + 1 * k.val = k.val; omega

/-- The second bias row's block, at (0, q), is the bias vector at q. -/
theorem block_b2 (c : Dev nD) (t : Fin cfg0.N) (q : Fin 32) :
    blockAt m c 4 t (ix2 (0 : Fin 1) q) = m ((c : Thread nD τ).loc main_arg5) (ix1 q) := by
  unfold blockAt
  show V m c main_v5 (((cfg0.win 4).blk t).view.emb (ix2 (0 : Fin 1) q)) = _
  rw [V_b2 m c]
  refine Eq.trans (congrArg _ (funext fun a => Fin.ext ?_)) (row_of_vec _ _ q)
  obtain ⟨-, -, -, -, -, -, -, -, e0, e1, -⟩ := idx_facts t
  match a with
  | ⟨0, _⟩ => show win0_4.index t (0 : Fin 2) * 1 + 1 * 0 = 0; omega
  | ⟨1, _⟩ => show win0_4.index t (1 : Fin 2) * 32 + 1 * q.val = q.val; omega

/-- Entry (p, q) of the output block at point t is entry (4000·t + p, q) of the result array. -/
theorem out_emb (t : Fin cfg0.N) (p : Fin 4000) (q : Fin 32) :
    ((cfg0.win 5).blk t).view.emb (ix2 p q)
      = ix2 (⟨4000 * t.val + p.val, by have := point_lt t; have := p.isLt; omega⟩ : Fin 100000) q := by
  funext a; apply Fin.ext
  obtain ⟨-, -, -, -, -, -, -, -, -, -, e0, e1⟩ := idx_facts t
  match a with
  | ⟨0, _⟩ => show win0_5.index t (0 : Fin 2) * 4000 + 1 * p.val = 4000 * t.val + p.val; omega
  | ⟨1, _⟩ => show win0_5.index t (1 : Fin 2) * 32 + 1 * q.val = q.val; omega

/-- An index of the result array is in point t's output block iff its row is among the block's 4000. -/
theorem mem_out (t : Fin cfg0.N) (i : S100000x32.Idx) :
    i ∈ ((cfg0.win 5).blk t).view.set ↔ ∀ a : Fin 2, win0_5.index t a * S4000x32.size a ≤ (i a).val ∧ (i a).val < win0_5.index t a * S4000x32.size a + S4000x32.size a := by
  show i ∈ ((View.whole main_v6).slice (win0_5.rect t)).set ↔ _
  rw [View.set_slice_whole, Rect.mem_set_unit]
  exact Iff.rfl

/-- Every index of the result array is in the output block of the point its row falls in. -/
theorem out_covered (i : S100000x32.Idx) : ∃ t : Fin cfg0.N, (cfg0.win 5).flush t = true ∧ i ∈ ((cfg0.win 5).blk t).view.set := by
  have hi0 : (i 0).val < 100000 := (i 0).isLt
  have hi1 : (i 1).val < 32 := (i 1).isLt
  have hN : cfg0.N = 25 := N_0
  refine ⟨⟨(i 0).val / 4000, by rw [hN]; omega⟩, flush0_5 _, ?_⟩
  rw [mem_out]
  obtain ⟨-, -, -, -, -, -, -, -, -, -, e0, e1⟩ := idx_facts ⟨(i 0).val / 4000, by rw [hN]; omega⟩
  intro a
  match a with
  | ⟨0, _⟩ => show win0_5.index _ (0 : Fin 2) * 4000 ≤ (i 0).val ∧ (i 0).val < win0_5.index _ (0 : Fin 2) * 4000 + 4000; rw [e0]; show (i 0).val / 4000 * 4000 ≤ (i 0).val ∧ (i 0).val < (i 0).val / 4000 * 4000 + 4000; omega
  | ⟨1, _⟩ => show win0_5.index _ (1 : Fin 2) * 32 ≤ (i 1).val ∧ (i 1).val < win0_5.index _ (1 : Fin 2) * 32 + 32; rw [e1]; omega

end Cert.KernelIdeal.Mlp

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.MlpEntry.lean ====
/-
  The perceptron block, entry by entry.

  The kernel's block computes, on 4000 rows,  out = max (X · W1 + b1) 0 · W2 + b2 : two matrix products accumulated into
  zeros, casts to a narrower float format that are the identity over the extended reals, a row bias broadcast over the
  rows, and a maximum against the zero splat. The host computes the same expression on all 100000 rows with two
  dot_general products. Over the extended reals both are, at an entry (p, q) of the block and (r, q) of the array,

      Σ_{k < 64} max (Σ_{j < 512} X[·, j] · W1[j, k] + b1[k]) 0 · W2[k, q] + b2[q],

  the same nested sums and products term by term; so where row p of the block is row r of the array, and the weights and
  biases agree, the two entries are equal. No finiteness is used: the zero word is never evaluated, it is the same word
  on both sides.
-/
import proofs.«150445_j33603824124481_1_alg».proof.Proof.Gen.KernelIdeal.Skeleton
import proofs.«150445_j33603824124481_1_alg».proof.Proof.RefRead
import proofs.«150445_j33603824124481_1_alg».proof.Proof.LibMatmulNN
import Idealize.ShloMosaic.Lib.ValueLayout
import Idealize.ShloMosaic.Lib.ValueIdx
import Idealize.ShloMosaic.Lib.Pipeline.Value
import Idealize.ShloMosaic.PureOps.Ideal.Laws

noncomputable section

namespace Cert.MlpEntry

open Idealize.ShloMosaic Idealize.ShloMosaic.ValueIdx

/-- The word of the float zero, kept as a word: both programs compare against it, neither proof evaluates it. -/
abbrev zeroWord : Ideal .f32 := Ideal.ofBits .f32 0x00000000#32

/-- The perceptron at one row: from the row's 512 features, the 512×64 and 64×32 weights and the two biases, the
    output's entry in column q. -/
def mlp (x : Fin 512 → Ideal .f32) (w1 : Fin 512 → Fin 64 → Ideal .f32) (b1 : Fin 64 → Ideal .f32)
    (w2 : Fin 64 → Fin 32 → Ideal .f32) (b2 : Fin 32 → Ideal .f32) (q : Fin 32) : Ideal .f32 :=
  (∑ k : Fin 64, max ((∑ j : Fin 512, x j * w1 j k) + b1 k) zeroWord * w2 k q) + b2 q

/-- The kernel's block at entry (p, q) is the perceptron at row p of its input block. -/
theorem kernel_entry
    (X : FVec Ideal Cert.KernelIdeal.S4000x512 .f32) (W1 : FVec Ideal Cert.KernelIdeal.S512x64 .f32)
    (B1 : FVec Ideal Cert.KernelIdeal.S1x64 .f32) (W2 : FVec Ideal Cert.KernelIdeal.S64x32 .f32)
    (B2 : FVec Ideal Cert.KernelIdeal.S1x32 .f32) (p : Fin 4000) (q : Fin 32) :
    Cert.KernelIdeal.Gen.k0_pay1 (F := Ideal) X W1 B1 W2 B2 (ix2 p q)
      = mlp (fun j => X (ix2 p j)) (fun j k => W1 (ix2 j k)) (fun k => B1 (ix2 (0 : Fin 1) k))
          (fun k q' => W2 (ix2 k q')) (fun q' => B2 (ix2 (0 : Fin 1) q')) q := by
  unfold Cert.KernelIdeal.Gen.k0_pay1 mlp
  refine (addf_apply _ _ _).trans ?_
  congr 1
  · -- the second product, into zeros: a sum over the 64 hidden units
    refine (Cert.MatmulNN.matmul_zero_apply _ rfl none _ _ p q).trans ?_
    refine Finset.sum_congr rfl fun k _ => ?_
    congr 1
    -- the hidden unit k at row p: the cast is the identity, the maximum is pointwise
    refine (truncf_apply (φ := .f32) (ψ := .bf16) _ Cert.KernelIdeal.Gen.bitsLt_bf16_f32 _).trans ?_
    refine (maximumf_apply _ _ _).trans ?_
    congr 1
    refine (addf_apply _ _ _).trans ?_
    congr 1
    · -- the first product, into zeros: a sum over the 512 features
      exact Cert.MatmulNN.matmul_zero_apply _ rfl none _ _ p k
    · -- the bias row broadcast over the rows
      rw [shapeCast_self]
      exact broadcastTo_1b_ab_apply _ _ p k
  · rw [shapeCast_self]
    exact broadcastTo_1b_ab_apply _ _ p q

/-- The host's array at entry (r, q) is the perceptron at row r of its input array. -/
theorem reference_entry
    (x0 : (⟨Cert.ReferenceIdeal.S100000x512, .f32⟩ : BufTy).Contents (Elt Ideal))
    (x2 : (⟨Cert.ReferenceIdeal.S512x64, .f32⟩ : BufTy).Contents (Elt Ideal))
    (x3 : (⟨Cert.ReferenceIdeal.S64, .f32⟩ : BufTy).Contents (Elt Ideal))
    (x4 : (⟨Cert.ReferenceIdeal.S64x32, .f32⟩ : BufTy).Contents (Elt Ideal))
    (x5 : (⟨Cert.ReferenceIdeal.S32, .f32⟩ : BufTy).Contents (Elt Ideal))
    (r : Fin 100000) (q : Fin 32) :
    Cert.ReferenceIdeal.Read.val_main_v12 (F := Ideal) x0 x2 x3 x4 x5 (ix2 r q)
      = mlp (fun j => x0 (ix2 r j)) (fun j k => x2 (ix2 j k)) (fun k => x3 (ix1 k))
          (fun k q' => x4 (ix2 k q')) (fun q' => x5 (ix1 q')) q := by
  unfold mlp
  -- the output is the second product plus the second bias, broadcast twice
  rw [Cert.ReferenceIdeal.Read.val_main_v12_apply, Cert.ReferenceIdeal.Read.val_main_v9_apply,
    Cert.ReferenceIdeal.Read.val_main_v11_apply, Cert.ReferenceIdeal.Read.val_main_v10_apply, Ideal.addf_def]
  congr 1
  · refine Finset.sum_congr rfl fun k _ => ?_
    -- the second product reads the hidden layer at (r, k) and the second weight at (k, q)
    have el : Cert.ReferenceIdeal.Read.lidx_main_v9 (ix2 r q) k = ix2 r k :=
      funext fun a => Fin.ext (by match a with | ⟨0, _⟩ => rfl | ⟨1, _⟩ => rfl)
    have er : Cert.ReferenceIdeal.Read.ridx_main_v9 (ix2 r q) k = ix2 k q :=
      funext fun a => Fin.ext (by match a with | ⟨0, _⟩ => rfl | ⟨1, _⟩ => rfl)
    rw [el, er]
    congr 1
    -- the hidden unit k at row r: a maximum against the zero splat of the first product plus the first bias
    rw [Cert.ReferenceIdeal.Read.val_main_v8_apply, Cert.ReferenceIdeal.Read.val_main_v7_apply,
      Cert.ReferenceIdeal.Read.val_main_v4_apply, Cert.ReferenceIdeal.Read.val_main_v6_apply,
      Cert.ReferenceIdeal.Read.val_main_v5_apply, Cert.ReferenceIdeal.Read.val_main_call0_v0_apply,
      Cert.ReferenceIdeal.Read.val_main_call0_cst_apply, Ideal.maximumf_def, Ideal.addf_def, Ideal.ofBits_def]
    congr 1
    congr 1
    · refine Finset.sum_congr rfl fun j _ => ?_
      -- the first product reads the input at (r, j) and the first weight at (j, k)
      have el4 : Cert.ReferenceIdeal.Read.lidx_main_v4 (ix2 r k) j = ix2 r j :=
        funext fun a => Fin.ext (by match a with | ⟨0, _⟩ => rfl | ⟨1, _⟩ => rfl)
      have er4 : Cert.ReferenceIdeal.Read.ridx_main_v4 (ix2 r k) j = ix2 j k :=
        funext fun a => Fin.ext (by match a with | ⟨0, _⟩ => rfl | ⟨1, _⟩ => rfl)
      rw [el4, er4]
    · -- the first bias, broadcast to a row and then over the rows, is read at k
      exact congrArg x3 (funext fun a => Fin.ext (by match a with | ⟨0, _⟩ => rfl))
  · -- the second bias, broadcast to a row and then over the rows, is read at q
    exact congrArg x5 (funext fun a => Fin.ext (by match a with | ⟨0, _⟩ => rfl))

/-- Where row p of the kernel's input block is row r of the host's input array, and the weights and biases agree, entry
    (p, q) of the kernel's output block is entry (r, q) of the host's output array. -/
theorem entry_eq
    (X : Vec Ideal Cert.KernelIdeal.S4000x512 .f32) (W1 : Vec Ideal Cert.KernelIdeal.S512x64 .f32)
    (B1 : Vec Ideal Cert.KernelIdeal.S1x64 .f32) (W2 : Vec Ideal Cert.KernelIdeal.S64x32 .f32)
    (B2 : Vec Ideal Cert.KernelIdeal.S1x32 .f32)
    (x0 : (⟨Cert.ReferenceIdeal.S100000x512, .f32⟩ : BufTy).Contents (Elt Ideal))
    (x2 : (⟨Cert.ReferenceIdeal.S512x64, .f32⟩ : BufTy).Contents (Elt Ideal))
    (x3 : (⟨Cert.ReferenceIdeal.S64, .f32⟩ : BufTy).Contents (Elt Ideal))
    (x4 : (⟨Cert.ReferenceIdeal.S64x32, .f32⟩ : BufTy).Contents (Elt Ideal))
    (x5 : (⟨Cert.ReferenceIdeal.S32, .f32⟩ : BufTy).Contents (Elt Ideal))
    (r : Fin 100000) (p : Fin 4000) (q : Fin 32)
    (hX : ∀ j : Fin 512, X (ix2 p j) = x0 (ix2 r j))
    (hW1 : ∀ (j : Fin 512) (k : Fin 64), W1 (ix2 j k) = x2 (ix2 j k))
    (hB1 : ∀ k : Fin 64, B1 (ix2 (0 : Fin 1) k) = x3 (ix1 k))
    (hW2 : ∀ (k : Fin 64) (q' : Fin 32), W2 (ix2 k q') = x4 (ix2 k q'))
    (hB2 : ∀ q' : Fin 32, B2 (ix2 (0 : Fin 1) q') = x5 (ix1 q')) :
    Cert.KernelIdeal.Gen.k0_pay1 (F := Ideal) X W1 B1 W2 B2 (ix2 p q)
      = Cert.ReferenceIdeal.Read.val_main_v12 (F := Ideal) x0 x2 x3 x4 x5 (ix2 r q) := by
  refine (kernel_entry X W1 B1 W2 B2 p q).trans (Eq.trans ?_ (reference_entry x0 x2 x3 x4 x5 r q).symm)
  -- the two perceptrons have the same row, weights and biases
  have h1 : (fun j => X (ix2 p j)) = fun j => x0 (ix2 r j) := funext hX
  have h2 : (fun j k => W1 (ix2 j k)) = fun j k => x2 (ix2 j k) := funext fun j => funext fun k => hW1 j k
  have h3 : (fun k => B1 (ix2 (0 : Fin 1) k)) = fun k => x3 (ix1 k) := funext hB1
  have h4 : (fun k q' => W2 (ix2 k q')) = fun k q' => x4 (ix2 k q') := funext fun k => funext fun q' => hW2 k q'
  have h5 : (fun q' => B2 (ix2 (0 : Fin 1) q')) = fun q' => x5 (ix1 q') := funext hB2
  exact congrFun (congr (congr (congr (congr (congrArg mlp h1) h2) h3) h4) h5) q

end Cert.MlpEntry

end
-- ==== Proof.KiValue.lean ====
/-
  What the region leaves in its result array, over the extended reals: at every entry the two-layer perceptron of the
  program's arguments — row r of the result is (max (x_r · W1 + b1) 0) · W2 + b2 — spelt as the reference's first
  twelve host stages spell it. Point t writes back rows 4000·t … 4000·t + 3999, each entry computed from row p of the
  point's input block, which is row 4000·t + p of the input; the 25 blocks cover the array.
-/
import proofs.«150445_j33603824124481_1_alg».proof.Proof.KiBlocks
import proofs.«150445_j33603824124481_1_alg».proof.Proof.MlpEntry

set_option maxRecDepth 16384

noncomputable section

namespace Cert.KernelIdeal.Mlp

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

theorem off_zero : (![0, 0] : Fin 2 → Nat) = fun _ => 0 := funext fun a => by fin_cases a <;> rfl

/-- The perceptron of core `c`'s argument arrays, entry by entry. -/
abbrev mlpOf (c : Dev nD) : S100000x32.Idx → Elt Ideal .f32 :=
  Cert.ReferenceIdeal.Read.val_main_v12 (F := Ideal) (m ((c : Thread nD τ).loc main_arg0)) (m ((c : Thread nD τ).loc main_arg2))
    (m ((c : Thread nD τ).loc main_arg3)) (m ((c : Thread nD τ).loc main_arg4)) (m ((c : Thread nD τ).loc main_arg5))

set_option backward.isDefEq.respectTransparency.types false in
/-- What point `t` writes back is block `t` of the perceptron of the arguments. -/
theorem flushed_eq (c : Dev nD) (t : Fin cfg0.N) :
    (dats m 0 c).flushed 5 t = ((cfg0.win 5).blk t).view.read (Elt Ideal) (mlpOf m c) := by
  show (cfg0.win 5).cut (grid0.coords t) ((dats m 0 c).after 5 t) = _
  rw [after_out]
  unfold blockOut
  rw [View.canon_unit_zero off_zero]
  simp only [View.ld_unit_zero (S := S4000x512) off_zero, View.ld_unit_zero (S := S512x64) off_zero, View.ld_unit_zero (S := S1x64) off_zero,
    View.ld_unit_zero (S := S64x32) off_zero, View.ld_unit_zero (S := S1x32) off_zero]
  funext y
  obtain ⟨p, q, rfl⟩ : ∃ (p : Fin 4000) (q : Fin 32), y = ix2 p q := ⟨y 0, y 1, eq_ix2 y⟩
  show k0_pay1 (F := Ideal) (blockAt m c 0 t) (blockAt m c 1 t) (blockAt m c 2 t) (blockAt m c 3 t) (blockAt m c 4 t) (ix2 p q)
    = mlpOf m c (((cfg0.win 5).blk t).view.emb (ix2 p q))
  rw [out_emb t p q]
  exact Cert.MlpEntry.entry_eq (blockAt m c 0 t) (blockAt m c 1 t) (blockAt m c 2 t) (blockAt m c 3 t) (blockAt m c 4 t)
    (m ((c : Thread nD τ).loc main_arg0)) (m ((c : Thread nD τ).loc main_arg2)) (m ((c : Thread nD τ).loc main_arg3))
    (m ((c : Thread nD τ).loc main_arg4)) (m ((c : Thread nD τ).loc main_arg5))
    ⟨4000 * t.val + p.val, by have := point_lt t; have := p.isLt; omega⟩ p q
    (fun j => block_x m c t p j) (fun j k => block_w1 m c t j k) (fun k => block_b1 m c t k)
    (fun k q' => block_w2 m c t k q') (fun q' => block_b2 m c t q')

/-- The result array after the region: the perceptron of the arguments. -/
theorem final (c : Dev nD) : (dats m 0 c).arrAt 5 cfg0.N = mlpOf m c :=
  (dats m 0 c).arrAt_eq_of_cover 5 (mlpOf m c) (fun t _ => flushed_eq m c t) out_covered

end Cert.KernelIdeal.Mlp

end
-- ==== Proof.KiRun.lean ====
/-
  The kernel's program run to its end, with its result named: the result buffer holds what the 221 later lines compute
  from the buffers as the region leaves them (the region's arrays at what the proof data compute, every other buffer as
  the region found it), and the six arguments are as launched.
-/
import proofs.«150445_j33603824124481_1_alg».proof.Proof.KiRegion

set_option maxRecDepth 16384

noncomputable section

namespace Cert.KernelIdeal.Mlp

open Idealize.ShloMosaic Idealize.ShloMosaic.TcCoe
open Idealize.SL Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ) (ρ : Dev nD → PrngReg)

/-- Core `c`'s result buffer after the later lines. -/
abbrev resultOf (c : Dev nD) : Buf (Elt F) ((c.tc : Thread nD τ).loc main_v169) :=
  Pipeline.afterTail₀ cfgs (dats m) 0 (V0 m) [hostOps1, hostOps1_1, hostOps1_2, hostOps1_3] c main_v169

theorem run_value : θ_run defs (onTc (τ := τ) (main (F := F))) ⟨m, fun _ => 0, ρ⟩ (fun r => ∀ c : Dev nD,
      r.2.mem ((c.tc : Thread nD τ).loc main_v169) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c).2 main_v169 (Pipeline.mem_restRefs_of main_v169 (by decide) (by decide)),
     ((h c).1 0).trans (((dats m 0 c).arrAt_in 0 rfl _).trans ((A_eq m c 0).trans (V_arg m c main_arg0 (by decide)))),
     ((h c).2 main_arg1 (Pipeline.mem_restRefs_of main_arg1 (by decide) (by decide))).trans (tail_arg m (dats m) c main_arg1 (by decide) (by decide) (by decide)),
     ((h c).1 1).trans (((dats m 0 c).arrAt_in 1 rfl _).trans ((A_eq m c 1).trans (V_arg m c main_arg2 (by decide)))),
     ((h c).2 main_arg3 (Pipeline.mem_restRefs_of main_arg3 (by decide) (by decide))).trans (tail_arg m (dats m) c main_arg3 (by decide) (by decide) (by decide)),
     ((h c).1 3).trans (((dats m 0 c).arrAt_in 3 rfl _).trans ((A_eq m c 3).trans (V_arg m c main_arg4 (by decide)))),
     ((h c).2 main_arg5 (Pipeline.mem_restRefs_of main_arg5 (by decide) (by decide))).trans (tail_arg m (dats m) c main_arg5 (by decide) (by decide) (by decide))⟩)
    (run_main m ρ)

end Cert.KernelIdeal.Mlp

end
-- ==== Proof.TailEq.lean ====
/-
  The 221 host lines the kernel's program runs after its region are, line for line, the lines the reference runs after
  its perceptron: the degrees of the graph, two rounds of the reweighted propagation, the log-softmax. Each line applies
  one pure operation to buffers earlier lines wrote; so the final buffer is ONE function of the three values the lines
  read and do not write — the perceptron's output f, and the two rows src, dst of the edge list — and that function is
  the same in both programs. Hence: two memories that agree on f, src and dst give equal final results.
-/
import proofs.«150445_j33603824124481_1_alg».proof.Proof.Gen.KernelIdeal.Launch
import proofs.«150445_j33603824124481_1_alg».proof.Proof.RefRun
import Idealize.ShloMosaic.Lib.StableHlo.Run
import Idealize.ShloMosaic.PureOps.Ideal

set_option maxRecDepth 100000

noncomputable section

namespace Cert.TailEq

open Idealize.ShloMosaic Idealize.ShloMosaic.TcCoe Idealize.SL.Sem Idealize.ShloMosaic.StableHlo

/-- The reference's lines after its perceptron: all but its first fifteen. -/
abbrev refTail : List (HloOp Cert.ReferenceIdeal.τ Cert.ReferenceIdeal.sig (Elt Ideal)) :=
  (Cert.ReferenceIdeal.FoldRun.ops (F := Ideal)).drop 15

set_option maxHeartbeats 400000000 in
/-- Equal inputs to the shared lines give equal outputs. -/
theorem tail_eq (WK : Valuation Cert.KernelIdeal.τ Cert.KernelIdeal.sig (Elt Ideal))
    (WR : Valuation Cert.ReferenceIdeal.τ Cert.ReferenceIdeal.sig (Elt Ideal))
    (f : (⟨Cert.KernelIdeal.S100000x32, .f32⟩ : BufTy).Contents (Elt Ideal))
    (src dst : (⟨Cert.KernelIdeal.S1600000, .i32⟩ : BufTy).Contents (Elt Ideal))
    (hK6 : WK (Proc.devRef .tc Cert.KernelIdeal.main_v6) = f)
    (hK1 : WK (Proc.devRef .tc Cert.KernelIdeal.main_v1) = src)
    (hK3 : WK (Proc.devRef .tc Cert.KernelIdeal.main_v3) = dst)
    (hR12 : WR (Proc.devRef .tc Cert.ReferenceIdeal.main_v12) = f)
    (hR1 : WR (Proc.devRef .tc Cert.ReferenceIdeal.main_v1) = src)
    (hR3 : WR (Proc.devRef .tc Cert.ReferenceIdeal.main_v3) = dst) :
    after (List.flatten [Cert.KernelIdeal.Gen.hostOps1 (F := Ideal), Cert.KernelIdeal.Gen.hostOps1_1, Cert.KernelIdeal.Gen.hostOps1_2, Cert.KernelIdeal.Gen.hostOps1_3]) WK
        (Proc.devRef .tc Cert.KernelIdeal.main_v169)
      = after refTail WR (Proc.devRef .tc Cert.ReferenceIdeal.main_v175) := by
  simp only [refTail, Cert.ReferenceIdeal.FoldRun.ops, List.drop_succ_cons, List.drop_zero,
    Cert.KernelIdeal.Gen.hostOps1, Cert.KernelIdeal.Gen.hostOps1_1, Cert.KernelIdeal.Gen.hostOps1_2, Cert.KernelIdeal.Gen.hostOps1_3,
    List.flatten_cons, List.flatten_nil, List.append_nil, List.cons_append, List.nil_append]
  after_results_simp
  rw [hK6, hK1, hK3, hR12, hR1, hR3]
  rfl

end Cert.TailEq

end
-- ==== Proof.RefSide.lean ====
/-
  The reference program's side: its arguments are never written, and its first fifteen operations are the perceptron.

  The reference program is a straight line of 236 host operations. Each operation writes exactly one buffer, its own
  result, and no result is one of the six arguments; so every run ends with the six arguments holding what they held at
  launch. The line splits after its fifteenth operation: the first fifteen are the two slices of the edge list (rows 0
  and 1, each reshaped to a vector) and the perceptron  max (x0 · x2 + x3) 0 · x4 + x5  on all 100000 rows. After the
  first fifteen, the perceptron's output buffer holds the perceptron of the launched arguments, and the two edge
  vectors hold the two rows of the launched edge list.
-/
import proofs.«150445_j33603824124481_1_alg».proof.Proof.RefRun
import proofs.«150445_j33603824124481_1_alg».proof.Proof.RefRead
import Idealize.ShloMosaic.Lib.StableHlo.Run
import Idealize.ShloMosaic.PureOps.Ideal

set_option maxRecDepth 100000

noncomputable section

namespace Cert.ReferenceIdeal.Mlp

open Cert.ReferenceIdeal Cert.ReferenceIdeal.Gen Cert.ReferenceIdeal.FoldRun Idealize.ShloMosaic Idealize.ShloMosaic.TcCoe Idealize.SL.Sem Idealize.ShloMosaic.StableHlo

variable {F : FTy → Type} [FloatOps F]

set_option maxHeartbeats 40000000 in
/-- None of the program's 236 operations writes one of its six arguments: each operation writes its own result, and no
    result is an argument. -/
theorem args_notWritten (r : Ref sig .tc)
    (hr : r ∈ ([main_arg0, main_arg1, main_arg2, main_arg3, main_arg4, main_arg5] : List (Ref sig .tc))) :
    (ops : List (HloOp τ sig (Elt F))).Forall fun op => Proc.devRef .tc r ∉ op.writes := by
  simp only [List.mem_cons, List.mem_nil_iff, or_false] at hr
  rcases hr with rfl | rfl | rfl | rfl | rfl | rfl
  all_goals
    simp only [ops, List.Forall, StableHlo.nullary_writes, StableHlo.unary_writes, StableHlo.binary_writes, StableHlo.ternary_writes, StableHlo.quaternary_writes, StableHlo.reshape_writes, StableHlo.binaryIndexed_writes, StableHlo.TRef.nullary, StableHlo.TRef.unary, StableHlo.TRef.binary, StableHlo.TRef.ternary, Finset.mem_singleton]
    repeat' apply And.intro
    all_goals exact StableHlo.devRef_ne_of_ne (by decide)

/-- So each argument holds, after the whole program, what it held at launch. -/
theorem arg_kept (m : (ℓ : Loc nD τ sig) → Buf (Elt F) ℓ) (c : Dev nD) (r : Ref sig .tc)
    (hr : r ∈ ([main_arg0, main_arg1, main_arg2, main_arg3, main_arg4, main_arg5] : List (Ref sig .tc))) :
    after (ops : List (HloOp τ sig (Elt F))) (launchContents m c) (Proc.devRef .tc r) = m ((c.tc : Thread nD τ).loc r) :=
  after_of_forall_not_mem (b := Proc.devRef .tc r) _ _ (List.forall_iff_forall_mem.mp (args_notWritten r hr))

/-- Every run of the program terminates with its six arguments as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0).trans (arg_kept m c main_arg0 (by decide)),
     (h c main_arg1).trans (arg_kept m c main_arg1 (by decide)),
     (h c main_arg2).trans (arg_kept m c main_arg2 (by decide)),
     (h c main_arg3).trans (arg_kept m c main_arg3 (by decide)),
     (h c main_arg4).trans (arg_kept m c main_arg4 (by decide)),
     (h c main_arg5).trans (arg_kept m c main_arg5 (by decide))⟩) (run_fold m ρ)

/-- The contents after one list of operations and then another are the contents after their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The program is its first fifteen operations — the perceptron on the host — and then the rest. -/
theorem after_split (V : Valuation τ sig (Elt F)) :
    after (ops : List (HloOp τ sig (Elt F))) V = after (ops.drop 15) (after (ops.take 15) V) :=
  (congrArg (fun l => after l V) (List.take_append_drop 15 (ops : List (HloOp τ sig (Elt F)))).symm).trans
    (after_append _ _ V)

/-- After the first fifteen operations the perceptron's output buffer holds the perceptron of the launched arguments. -/
theorem head_f (m : (ℓ : Loc nD τ sig) → Buf (Elt F) ℓ) (c : Dev nD) :
    after ((ops : List (HloOp τ sig (Elt F))).take 15) (launchContents m c) (Proc.devRef .tc main_v12)
      = Cert.ReferenceIdeal.Read.val_main_v12 (F := F) (m ((c.tc : Thread nD τ).loc main_arg0))
          (m ((c.tc : Thread nD τ).loc main_arg2)) (m ((c.tc : Thread nD τ).loc main_arg3))
          (m ((c.tc : Thread nD τ).loc main_arg4)) (m ((c.tc : Thread nD τ).loc main_arg5)) := by
  simp only [ops, List.take_succ_cons, List.take_zero]
  after_results
  rfl

/-- After the first fifteen operations the sources' buffer holds row 0 of the launched edge list, as a vector. -/
theorem head_src (m : (ℓ : Loc nD τ sig) → Buf (Elt F) ℓ) (c : Dev nD) :
    after ((ops : List (HloOp τ sig (Elt F))).take 15) (launchContents m c) (Proc.devRef .tc main_v1)
      = shapeCast _ (extractStridedSlice S1x1600000 ![0, 0] (m ((c.tc : Thread nD τ).loc main_arg1))
          slices_S2x1600000_S1x1600000_0_0) shapeCasts_S1x1600000_S1600000 := by
  simp only [ops, List.take_succ_cons, List.take_zero]
  after_results
  rfl

/-- After the first fifteen operations the destinations' buffer holds row 1 of the launched edge list, as a vector. -/
theorem head_dst (m : (ℓ : Loc nD τ sig) → Buf (Elt F) ℓ) (c : Dev nD) :
    after ((ops : List (HloOp τ sig (Elt F))).take 15) (launchContents m c) (Proc.devRef .tc main_v3)
      = shapeCast _ (extractStridedSlice S1x1600000 ![1, 0] (m ((c.tc : Thread nD τ).loc main_arg1))
          slices_S2x1600000_S1x1600000_1_0) shapeCasts_S1x1600000_S1600000 := by
  simp only [ops, List.take_succ_cons, List.take_zero]
  after_results
  rfl

end Cert.ReferenceIdeal.Mlp

end
-- ==== Proof.Bridge.lean ====
/-
  The two programs' results are equal. The reference's run is its 236 host lines folded over its launch memory: the
  first fifteen compute the perceptron f of the arguments and the two rows src, dst of the edge list; the other 221
  are the lines the kernel's program runs after its region. The kernel's program reaches those lines with its region's
  result array holding the same f (the value of the region, entry by entry) and the same src, dst (two slices made
  before the region). Equal inputs to the shared lines give equal outputs.
-/
import proofs.«150445_j33603824124481_1_alg».proof.Proof.KiValue
import proofs.«150445_j33603824124481_1_alg».proof.Proof.KiRun
import proofs.«150445_j33603824124481_1_alg».proof.Proof.TailEq
import proofs.«150445_j33603824124481_1_alg».proof.Proof.RefSide

set_option maxRecDepth 100000

noncomputable section

namespace Cert.Bridge

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

set_option backward.isDefEq.respectTransparency.types false in
/-- From memories that agree on the six arguments, the reference's result buffer ends at the kernel program's. -/
theorem result_eq (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.FoldRun.ops (F := Ideal)) (launchContents m' c) (Proc.devRef .tc Cert.ReferenceIdeal.main_v175)
      = Cert.KernelIdeal.Mlp.resultOf m c := by
  rw [Cert.ReferenceIdeal.Mlp.after_split]
  unfold Cert.KernelIdeal.Mlp.resultOf Pipeline.afterTail₀
  refine (Cert.TailEq.tail_eq _ _ (Cert.KernelIdeal.Mlp.mlpOf m c)
    (Cert.KernelIdeal.Mlp.V m c Cert.KernelIdeal.main_v1) (Cert.KernelIdeal.Mlp.V m c Cert.KernelIdeal.main_v3)
    ?_ ?_ ?_ ?_ ?_ ?_).symm
  · exact (Pipeline.withArrays_arr Cert.KernelIdeal.spec0 Cert.KernelIdeal.Gen.launch0.win.arr_inj c _ _ 5).trans (Cert.KernelIdeal.Mlp.final m c)
  · exact Pipeline.withArrays_of_ne _ c _ _ Cert.KernelIdeal.main_v1 (by decide)
  · exact Pipeline.withArrays_of_ne _ c _ _ Cert.KernelIdeal.main_v3 (by decide)
  · refine (Cert.ReferenceIdeal.Mlp.head_f m' c).trans ?_
    rw [h0, h2, h3, h4, h5]
  · refine (Cert.ReferenceIdeal.Mlp.head_src m' c).trans ?_
    rw [h1]
    exact (Cert.KernelIdeal.Mlp.V_src m c).symm
  · refine (Cert.ReferenceIdeal.Mlp.head_dst m' c).trans ?_
    rw [h1]
    exact (Cert.KernelIdeal.Mlp.V_dst m c).symm

end Cert.Bridge

end
-- ==== Proof.lean ====
/-
  The certificate of a graph network's forward pass. The kernel's program computes the two-layer perceptron
  f = (max (x · W1 + b1) 0) · W2 + b2 in one region — 25 blocks of 4000 rows, the weights whole — and then, on the host,
  the degrees of the graph, two rounds of the reweighted propagation of f along the edges, and the log-softmax; the
  reference computes the perceptron by two host matrix products and then runs the same host lines.

  Frames: each program terminates without a fault and leaves its six arguments as launched — the kernel's programs by
  the launch theorem for a region followed by host lines (the body loads its windows whole and stores its result whole;
  no host line writes an argument or an array of the region), the reference by its run as a fold of host operations
  none of which writes an argument.

  Equivalence over the extended reals: the region's result array is the perceptron of the arguments entry by entry (a
  matrix product into a zero accumulator and the host's matrix product are the same sums; the changes of float format
  are the identity), the host lines that follow are the same function of (f, src, dst) in both programs, and the two
  programs reach them with equal f, src and dst. The idealization rewrote nothing, so its ledger is empty.
-/
import proofs.«150445_j33603824124481_1_alg».proof.Defs
import proofs.«150445_j33603824124481_1_alg».proof.Proof.Gen.Kernel
import proofs.«150445_j33603824124481_1_alg».proof.Proof.Gen.KernelIdeal
import proofs.«150445_j33603824124481_1_alg».proof.Proof.Gen.ReferenceIdeal
import proofs.«150445_j33603824124481_1_alg».proof.Proof.Gen.Pre_finite_inputs
import proofs.«150445_j33603824124481_1_alg».proof.Proof.KRegion
import proofs.«150445_j33603824124481_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Mlp.frame m ρ
theorem frame_ki : Cert.frame_KernelIdeal := fun m ρ _ => Cert.KernelIdeal.Mlp.frame m ρ
theorem frame_ri : Cert.frame_ReferenceIdeal := fun m ρ _ => Cert.ReferenceIdeal.Mlp.frame m ρ

/-- The idealization rewrote no operation. -/
theorem preserves : Cert.preserves_Kernel_KernelIdeal := trivial

/-- Both runs end with the result at what the kernel's program computes; the reference's fold reaches the same value
    because the memories agree on the arguments. -/
theorem algebraic : Cert.algebraic_KernelIdeal_ReferenceIdeal := by
  intro m ρ m' ρ' _ hagree
  refine ⟨fun c => Cert.KernelIdeal.Mlp.resultOf m c, Cert.KernelIdeal.Mlp.run_value m ρ, ?_⟩
  refine (θ_run Cert.ReferenceIdeal.defs _ _).mono (fun r h c => ⟨(h c Cert.ReferenceIdeal.main_v175).trans
      (Cert.Bridge.result_eq m m' c (hagree c).1 (hagree c).2.1 (hagree c).2.2.1 (hagree c).2.2.2.1 (hagree c).2.2.2.2.1 (hagree c).2.2.2.2.2),
      (h c Cert.ReferenceIdeal.main_arg0).trans (Cert.ReferenceIdeal.Mlp.arg_kept m' c Cert.ReferenceIdeal.main_arg0 (by decide)),
      (h c Cert.ReferenceIdeal.main_arg1).trans (Cert.ReferenceIdeal.Mlp.arg_kept m' c Cert.ReferenceIdeal.main_arg1 (by decide)),
      (h c Cert.ReferenceIdeal.main_arg2).trans (Cert.ReferenceIdeal.Mlp.arg_kept m' c Cert.ReferenceIdeal.main_arg2 (by decide)),
      (h c Cert.ReferenceIdeal.main_arg3).trans (Cert.ReferenceIdeal.Mlp.arg_kept m' c Cert.ReferenceIdeal.main_arg3 (by decide)),
      (h c Cert.ReferenceIdeal.main_arg4).trans (Cert.ReferenceIdeal.Mlp.arg_kept m' c Cert.ReferenceIdeal.main_arg4 (by decide)),
      (h c Cert.ReferenceIdeal.main_arg5).trans (Cert.ReferenceIdeal.Mlp.arg_kept m' c Cert.ReferenceIdeal.main_arg5 (by decide))⟩)
    (Cert.ReferenceIdeal.FoldRun.run_fold (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
